-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel

variable [Facts]

def fn {F : FTy → Type} [FloatOps F] (main_arg0 : FVec F S16x2048x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  main_v3
-- ==== Kernel.lean ====
abbrev S16x2048x2048 : Shape := ⟨3, ![16, 2048, 2048]⟩
abbrev S32768x2048 : Shape := ⟨2, ![32768, 2048]⟩
abbrev S16x256 : Shape := ⟨2, ![16, 256]⟩
abbrev S512x2048 : Shape := ⟨2, ![512, 2048]⟩
abbrev S8x256 : Shape := ⟨2, ![8, 256]⟩
abbrev S1x512x2048 : Shape := ⟨3, ![1, 512, 2048]⟩
abbrev S1 : Shape := ⟨1, ![1]⟩
abbrev S1x1x1 : Shape := ⟨3, ![1, 1, 1]⟩
abbrev S1x256 : Shape := ⟨2, ![1, 256]⟩
abbrev S256 : Shape := ⟨1, ![256]⟩
abbrev S_ : Shape := ⟨0, ![]⟩

abbrev nBuf : Space → Nat
  | .hbm => 38
  | .vmem => 4
  | .smem => 0
  | _ => 0

abbrev bufTy : (tb : Table) → Fin (tcTables nBuf tb) → BufTy
  | .hbm, ⟨0, _⟩ => ⟨S16x2048x2048, .f32⟩
  | .hbm, ⟨1, _⟩ => ⟨S32768x2048, .f32⟩
  | .hbm, ⟨2, _⟩ => ⟨S16x256, .f32⟩
  | .hbm, ⟨3, _⟩ => ⟨S1x256, .f32⟩
  | .hbm, ⟨4, _⟩ => ⟨S256, .f32⟩
  | .hbm, ⟨5, _⟩ => ⟨S1x256, .f32⟩
  | .hbm, ⟨6, _⟩ => ⟨S256, .f32⟩
  | .hbm, ⟨7, _⟩ => ⟨S256, .f32⟩
  | .hbm, ⟨8, _⟩ => ⟨S_, .f32⟩
  | .hbm, ⟨9, _⟩ => ⟨S256, .f32⟩
  | .hbm, ⟨10, _⟩ => ⟨S256, .f32⟩
  | .hbm, ⟨11, _⟩ => ⟨S_, .f32⟩
  | .hbm, ⟨12, _⟩ => ⟨S256, .f32⟩
  | .hbm, ⟨13, _⟩ => ⟨S256, .i1⟩
  | .hbm, ⟨14, _⟩ => ⟨S_, .f32⟩
  | .hbm, ⟨15, _⟩ => ⟨S256, .f32⟩
  | .hbm, ⟨16, _⟩ => ⟨S256, .i1⟩
  | .hbm, ⟨17, _⟩ => ⟨S_, .f32⟩
  | .hbm, ⟨18, _⟩ => ⟨S_, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S_, .f32⟩
  | .hbm, ⟨23, _⟩ => ⟨S_, .f32⟩
  | .hbm, ⟨24, _⟩ => ⟨S256, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S256, .f32⟩
  | .hbm, ⟨30, _⟩ => ⟨S256, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S8x256, .f32⟩
  | .local _ .vmem, ⟨3, _⟩ => ⟨S8x256, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_3 : BitVec 32 := 0#32
  let c32_i32 : BitVec 32 := 32#32
  let v17 : BitVec 32 := Scalar.addi c0_i32_3 c32_i32
  let c1_i32 : BitVec 32 := 1#32
  ⟨c0_i32_3, v17, c1_i32⟩
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S16x2048x2048_S32768x2048 : S16x2048x2048.ShapeCasts S32768x2048
  inb_S8x256_S8x256_0_0 : ∀ a, (![0, 0] : Fin 2 → Nat) a + S8x256.size a ≤ S8x256.size a
  h_S8x256 : 0 < S8x256.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  iota_S8x256_d1_w32 : S8x256.Iotas .tc 32 [1]
  natLt_1_32 : 1 < 32
  shapeCasts_S512x2048_S1x512x2048 : S512x2048.ShapeCasts S1x512x2048
  reduces_S1x512x2048_S1 : S1x512x2048.Reduces [1, 2] S1
  shapeCasts_S1_S1x1x1 : S1.ShapeCasts S1x1x1
  inpos_S1x1x1_p0_0_0 : ∀ a, (![0, 0, 0] : Fin 3 → Nat) a < S1x1x1.size a
  shapeCasts_S8x256_S8x256 : S8x256.ShapeCasts S8x256
  slices_S16x256_S1x256_0_0 : S16x256.Slices ![0, 0] S1x256
  shapeCasts_S1x256_S256 : S1x256.ShapeCasts S256
  slices_S16x256_S1x256_8_0 : S16x256.Slices ![8, 0] S1x256
  bcast_S_S256 : S_.BroadcastsInDim S256 (![] : Fin 0 → Fin S256.rank)
  reducesTo_S256_S_d0 : S256.ReducesTo [0] S_
  h_S_ : 0 < S_.numel
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S16x256.size a
  hwx0_1 : ∀ i : grid0.Coords, EltTy.bits .f32 = 32 ∨ (Rect.block (s := S16x256) S8x256.size (cc0_transform_1 i) (hinb0_1 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S_ : Shape := ⟨0, ![]⟩
abbrev S67108864 : Shape := ⟨1, ![67108864]⟩
abbrev S257 : Shape := ⟨1, ![257]⟩
abbrev S67108864x1 : Shape := ⟨2, ![67108864, 1]⟩
abbrev S256 : Shape := ⟨1, ![256]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x2048, .f32⟩
  | .hbm, ⟨2, _⟩ => ⟨S16x2048x2048, .i32⟩
  | .hbm, ⟨3, _⟩ => ⟨S_, .f32⟩
  | .hbm, ⟨4, _⟩ => ⟨S16x2048x2048, .f32⟩
  | .hbm, ⟨5, _⟩ => ⟨S16x2048x2048, .i1⟩
  | .hbm, ⟨6, _⟩ => ⟨S_, .f32⟩
  | .hbm, ⟨7, _⟩ => ⟨S16x2048x2048, .f32⟩
  | .hbm, ⟨8, _⟩ => ⟨S16x2048x2048, .i1⟩
  | .hbm, ⟨9, _⟩ => ⟨S16x2048x2048, .i1⟩
  | .hbm, ⟨10, _⟩ => ⟨S_, .i32⟩
  | .hbm, ⟨11, _⟩ => ⟨S_, .i32⟩
  | .hbm, ⟨12, _⟩ => ⟨S16x2048x2048, .i32⟩
  | .hbm, ⟨13, _⟩ => ⟨S16x2048x2048, .i32⟩
  | .hbm, ⟨14, _⟩ => ⟨S67108864, .i32⟩
  | .hbm, ⟨15, _⟩ => ⟨S_, .i32⟩
  | .hbm, ⟨16, _⟩ => ⟨S257, .i32⟩
  | .hbm, ⟨17, _⟩ => ⟨S_, .i32⟩
  | .hbm, ⟨18, _⟩ => ⟨S_, .i32⟩
  | .hbm, ⟨19, _⟩ => ⟨S67108864, .i32⟩
  | .hbm, ⟨20, _⟩ => ⟨S67108864, .i32⟩
  | .hbm, ⟨21, _⟩ => ⟨S_, .i32⟩
  | .hbm, ⟨22, _⟩ => ⟨S67108864, .i32⟩
  | .hbm, ⟨23, _⟩ => ⟨S67108864, .i1⟩
  | .hbm, ⟨24, _⟩ => ⟨S_, .i32⟩
  | .hbm, ⟨25, _⟩ => ⟨S67108864, .i32⟩
  | .hbm, ⟨26, _⟩ => ⟨S67108864, .i32⟩
  | .hbm, ⟨27, _⟩ => ⟨S67108864, .i32⟩
  | .hbm, ⟨28, _⟩ => ⟨S67108864x1, .i32⟩
  | .hbm, ⟨29, _⟩ => ⟨S_, .i32⟩
  | .hbm, ⟨30, _⟩ => ⟨S67108864, .i32⟩
  | .hbm, ⟨31, _⟩ => ⟨S257, .i32⟩
  | .hbm, ⟨32, _⟩ => ⟨S256, .i32⟩
  | .hbm, ⟨33, _⟩ => ⟨S256, .f32⟩
  | .hbm, ⟨34, _⟩ => ⟨S_, .f32⟩
  | .hbm, ⟨35, _⟩ => ⟨S256, .f32⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .i1⟩
  | .hbm, ⟨40, _⟩ => ⟨S_, .f32⟩
  | .hbm, ⟨41, _⟩ => ⟨S256, .f32⟩
  | .hbm, ⟨42, _⟩ => ⟨S256, .i1⟩
  | .hbm, ⟨43, _⟩ => ⟨S_, .f32⟩
  | .hbm, ⟨44, _⟩ => ⟨S_, .f32⟩
  | .hbm, ⟨45, _⟩ => ⟨S256, .f32⟩
  | .hbm, ⟨46, _⟩ => ⟨S256, .f32⟩
  | .hbm, ⟨47, _⟩ => ⟨S256, .f32⟩
  | .hbm, ⟨48, _⟩ => ⟨S_, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S256, .f32⟩
  | .hbm, ⟨53, _⟩ => ⟨S_, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_c_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_call2_v0 : Ref sig .tc := ⟨.hbm, 44, rfl⟩
abbrev main_call2_v1 : Ref sig .tc := ⟨.hbm, 45, rfl⟩
abbrev main_v27 : Ref sig .tc := ⟨.hbm, 46, rfl⟩
abbrev main_v28 : Ref sig .tc := ⟨.hbm, 47, rfl⟩
abbrev main_cst_10 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_call3_v0 : Ref sig .tc := ⟨.hbm, 54, rfl⟩
abbrev main_call3_v1 : Ref sig .tc := ⟨.hbm, 55, rfl⟩
abbrev main_v33 : Ref sig .tc := ⟨.hbm, 56, rfl⟩
abbrev main_cst_12 : Ref sig .tc := ⟨.hbm, 57, rfl⟩
abbrev main_v34 : Ref sig .tc := ⟨.hbm, 58, rfl⟩
abbrev main_v35 : Ref sig .tc := ⟨.hbm, 59, rfl⟩
abbrev main_cst_13 : Ref sig .tc := ⟨.hbm, 60, rfl⟩
abbrev main_v36 : Ref sig .tc := ⟨.hbm, 61, rfl⟩
abbrev main_cst_14 : Ref sig .tc := ⟨.hbm, 62, rfl⟩
abbrev main_v37 : Ref sig .tc := ⟨.hbm, 63, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  shapeCasts_S16x2048x2048_S67108864 : S16x2048x2048.ShapeCasts S67108864
  bcast_S_S257 : S_.BroadcastsInDim S257 (![] : Fin 0 → Fin S257.rank)
  bcast_S_S67108864 : S_.BroadcastsInDim S67108864 (![] : Fin 0 → Fin S67108864.rank)
  bcast_S67108864_S67108864x1_0 : S67108864.BroadcastsInDim S67108864x1 (![0] : Fin 1 → Fin S67108864x1.rank)
  slices_S257_S256_0 : S257.Slices ![0] S256
  bcast_S_S256 : S_.BroadcastsInDim S256 (![] : Fin 0 → Fin S256.rank)
  reducesTo_S256_S_d0 : S256.ReducesTo [0] S_
  h_S_ : 0 < S_.numel
  scatter_S257_S67108864x1_S67108864_n_0_0_1_wf : ScatterDims.WF S257 S67108864x1 S67108864 [] [0] [0] 1

variable [Facts₀]

def scatter_S257_S67108864x1_S67108864_n_0_0_1 : ScatterDims S257 S67108864x1 S67108864 where
  updateWindowDims := []
  insertedWindowDims := [0]
  scatterDimsToOperandDims := [0]
  indexVectorDim := 1
  wf := scatter_S257_S67108864x1_S67108864_n_0_0_1_wf

class Facts : Prop extends Facts₀ where

variable [Facts]
-- ==== Proof.LibWholeReadBack.lean ====
/-
  Reading a buffer back after a store that covered all of it.

  A buffer's contents after a list of stores (newest first) are the prior contents overwritten piece by piece.  If
  the newest store went through the rectangle of the whole buffer, a load of the whole buffer reads exactly that
  store's values, whatever the prior contents and the older stores were: an accumulator that is read, added to, and
  written back whole.
-/
import Idealize.ShloMosaic.Lib.Pipeline.Value

noncomputable section

namespace Idealize.ShloMosaic.View

variable {Val : EltTy → Type} {S : Shape} {e : EltTy}

/-- The whole-buffer load of the contents left by a newest store through the whole-buffer rectangle, over ANY prior
    contents `f` and older stores `L`, is that store's values. -/
theorem readAt_writes_cons_unit_zero [∀ e, Nonempty (Val e)] {sig : RefSig} {κ : Kind} {sp : Space}
    (v : View sig κ sp S e) {off : Fin S.rank → Nat} (h : off = fun _ => 0)
    (inb : ∀ a, off a + S.size a ≤ S.size a) (f : v.ty.Contents Val) (w : S.Idx → Val e) (L : List (Piece Val S e)) :
    v.readAt Val (Rect.unit off S.size inb).toLoadRect (v.writes Val f ((⟨Rect.unit off S.size inb, w⟩ : Piece Val S e) :: L)) = w := by
  subst h
  show ld (v.read Val (v.writes Val f _)) (Rect.unit (fun _ => 0) S.size inb) = w
  rw [read_writes_eq_canon v f _ (fun y => ⟨_, List.mem_cons_self, mem_set_unit_zero rfl inb y⟩),
    canon_cons_unit_zero rfl, ld_unit_zero rfl]

end Idealize.ShloMosaic.View

end
-- ==== Proof.KernelPieces.lean ====
/-
  What the kernel's body leaves in its output block, as a fold over the 32 trips of its loop.

  The output block [8,256] is an accumulator: at the first grid point of a core's run it is zero-filled, and each of
  the loop's 32 trips loads it whole, adds that trip's eight bins, and stores it back whole.  So after the body the
  block holds the 32-fold application of "one trip's update" to what the block held at loop entry: zeros in the
  first case, what the previous grid point left in the other.
-/
import proofs.«134872_j72679436583685_2_alg».proof.Proof.Gen.KernelIdeal.Frame
import proofs.«134872_j72679436583685_2_alg».proof.Proof.LibWholeReadBack

noncomputable section

namespace Cert.KernelIdeal.Pieces

open Cert.KernelIdeal Cert.KernelIdeal.Gen
open Idealize.ShloMosaic Idealize.ShloMosaic.TcCoe Idealize.ShloMosaic.Tactic
open Idealize.SL Idealize.SL.Sem

variable {F : FTy → Type} [FloatOps F]

/-- The rectangle of the whole output block. -/
abbrev ROut : Rect S8x256 := Rect.unit (s := S8x256) ![0, 0] S8x256.size inb_S8x256_S8x256_0_0

/-- The first bin of trip `k`, as the kernel computes it: 8·k. -/
def binBase (k : Fin k0_t1_loop.trips) : BitVec 32 :=
  Scalar.muli (Scalar.addi 0#32 (Scalar.muli (Scf.iv 0#32 1#32 k) 1#32)) 8#32

/-- One trip's update of the accumulator `g`: `g` plus the trip's eight bins (the body's payloads composed). -/
def stepPay (v3 : Vec F S512x2048 .f32) (k : Fin k0_t1_loop.trips) (g : Vec F S8x256 .f32) : FVec F S8x256 .f32 :=
  k0_pay4 v3 (binBase k)
    (k0_pay9 (k0_pay2 v3) (k0_pay3 (F := F)) (binBase k) (k0_pay5 (k0_pay2 v3) (k0_pay3 (F := F)) 0#32 1#32 k)
      (k0_pay7 (k0_pay2 v3) 0#32 1#32 k) (k0_pay8 (F := F) 0#32 1#32 k))
    (k0_pay11 (k0_pay3 (F := F)) (binBase k)) (FloatOps.ofBits .f32 0#32) (k0_pay12 (k0_pay2 v3) (binBase k)) g

/-- One trip writes ONE piece: the whole block, at the trip's update of what it finds there. -/
theorem trip_piece (𝒱 : Variants) (c : Dev nD) (bd : Option 𝒱.V) (i : grid0.Coords) (arg2 : Memref sig .tc .vmem S512x2048 .f32)
    (harg2 : arg2.IsWhole) (arg3 : Memref sig .tc .vmem S8x256 .f32) (harg3 : arg3.IsWhole) (v3 : Vec F S512x2048 .f32)
    (k : Fin k0_t1_loop.trips) (f : BufTy.Contents (Elt F) arg3.view.ty) :
    tripL_k0_t1 (F := F) 𝒱 c bd i arg2 harg2 arg3 harg3 v3 k f
      = [⟨ROut, stepPay v3 k (View.readAt (Elt F) arg3.view ROut.toLoadRect f)⟩] := by
  unfold tripL_k0_t1 trip_k0_t1
  dsimp only
  sl_unfold_run_names
  rfl

/-- The accumulator after `k` trips from `g`. -/
def accK (v3 : Vec F S512x2048 .f32) : ℕ → Vec F S8x256 .f32 → Vec F S8x256 .f32
  | 0, g => g
  | k + 1, g => if h : k < k0_t1_loop.trips then stepPay v3 ⟨k, h⟩ (accK v3 k g) else accK v3 k g

theorem accK_succ (v3 : Vec F S512x2048 .f32) (k : Fin k0_t1_loop.trips) (g : Vec F S8x256 .f32) :
    accK v3 (k.val + 1) g = stepPay v3 k (accK v3 k.val g) := by
  rw [accK]; exact dif_pos k.isLt

section Loop
variable (𝒱 : Variants) (c : Dev nD) (bd : Option 𝒱.V) (i : grid0.Coords) (arg2 : Memref sig .tc .vmem S512x2048 .f32)
    (harg2 : arg2.IsWhole) (arg3 : Memref sig .tc .vmem S8x256 .f32) (harg3 : arg3.IsWhole) (v3 : Vec F S512x2048 .f32)
    (G : BufTy.Contents (Elt F) arg3.view.ty)

/-- After the pieces of the first `k` trips, the block read back whole is the `k`-fold update of what was read at
    loop entry; and the pieces of the first `k + 1` trips are one whole-block piece in front of those of the first `k`. -/
theorem loop_read : ∀ k : ℕ, k ≤ k0_t1_loop.trips →
    View.readAt (Elt F) arg3.view ROut.toLoadRect (arg3.view.writes (Elt F) G (pb_k0_t1 (F := F) 𝒱 c bd i arg2 harg2 arg3 harg3 v3 G k))
      = accK v3 k (View.readAt (Elt F) arg3.view ROut.toLoadRect G)
  | 0, _ => rfl
  | k + 1, hk => by
    have hs := pb_k0_t1_succ (F := F) 𝒱 c bd i arg2 harg2 arg3 harg3 v3 G ⟨k, hk⟩
    rw [show (⟨k, hk⟩ : Fin k0_t1_loop.trips).val + 1 = k + 1 from rfl, show (⟨k, hk⟩ : Fin k0_t1_loop.trips).val = k from rfl] at hs
    rw [hs, trip_piece, List.singleton_append,
      View.readAt_writes_cons_unit_zero arg3.view (funext fun a => by fin_cases a <;> rfl) inb_S8x256_S8x256_0_0,
      loop_read k (Nat.le_of_succ_le hk)]
    exact (accK_succ v3 ⟨k, hk⟩ _).symm

theorem pieces_succ (k : Fin k0_t1_loop.trips) :
    pb_k0_t1 (F := F) 𝒱 c bd i arg2 harg2 arg3 harg3 v3 G (k.val + 1)
      = ⟨ROut, accK v3 (k.val + 1) (View.readAt (Elt F) arg3.view ROut.toLoadRect G)⟩
          :: pb_k0_t1 (F := F) 𝒱 c bd i arg2 harg2 arg3 harg3 v3 G k.val := by
  rw [pb_k0_t1_succ, trip_piece, List.singleton_append, loop_read 𝒱 c bd i arg2 harg2 arg3 harg3 v3 G k.val (Nat.le_of_lt k.isLt), accK_succ]

end Loop

end Cert.KernelIdeal.Pieces

end
-- ==== Proof.Spec.lean ====
/-
  The histogram both programs compute, and the tail they share.

  An image entry x falls in bin b (b = 0 … 255) when 0 ≤ x < 256 and the integer part of x, as a 32-bit word, is b.
  The count of bin b is the number of entries of the whole image that fall in it.  Both programs end by the same
  arithmetic on the 256 counts: p = count / 2^22, the sum over the bins with p > 0 of p · log p / log 2, and
  16 · (8 − (−sum)).
-/
import Idealize.ShloMosaic.PureOps.Ideal
import Idealize.ShloMosaic.PureOps.Ideal.Laws
import Idealize.ShloMosaic.Lib.ValueIdx

noncomputable section

namespace Cert.Hist

open Idealize.ShloMosaic

/-- The image's shape, the vector of counts' shape and the scalar's shape. -/
abbrev SImg : Shape := ⟨3, ![16, 2048, 2048]⟩
abbrev SBins : Shape := ⟨1, ![256]⟩
abbrev SScalar : Shape := ⟨0, ![]⟩

/-- The one-bit word "0 ≤ x and x < 256". -/
def inRange (x : EReal) : BitVec 1 :=
  IntOp.andi (Ideal.cmp .oge x (Ideal.ofBits .f32 0x00000000#32)) (Ideal.cmp .olt x (Ideal.ofBits .f32 0x43800000#32))

/-- The integer part of x (rounded down, then converted to a signed 32-bit word). -/
def binWord (x : EReal) : BitVec 32 := Ideal.fptosi 32 (Ideal.liftRound Int.floor x)

/-- The entry x falls in bin b. -/
def Hit (x : EReal) (b : ℕ) : Prop := inRange x = 1#1 ∧ binWord x = BitVec.ofNat 32 b

instance (x : EReal) (b : ℕ) : Decidable (Hit x b) := by unfold Hit; infer_instance

/-- How many entries of the image fall in bin b. -/
def count (img : SImg.Idx → EReal) (b : ℕ) : ℕ := (Finset.univ.filter fun e : SImg.Idx => Hit (img e) b).card

/-- The 256 counts as extended reals. -/
def countsVec (img : SImg.Idx → EReal) : SBins.Idx → EReal := fun i => ((count img (i 0).val : ℝ) : EReal)

/-- The arithmetic both programs apply to the vector of counts: with p = counts / 2^22 (the word 0x4A800000),
    16 · (8 − (−Σ_b [p_b > 0] · p_b · (log (if p_b > 0 then p_b else 1) / log 2))). -/
def entropyTail (hb : SScalar.BroadcastsInDim SBins (![] : Fin 0 → Fin SBins.rank)) (hr : SBins.ReducesTo [0] SScalar)
    (h0 : 0 < SScalar.numel) (cnt : FVec Ideal SBins .f32) : FVec Ideal SScalar .f32 :=
  let P : FVec Ideal SBins .f32 := Host.divf (F := Ideal) cnt (broadcastInDim SBins ![] hb (constant (F := Ideal) SScalar .f32 0x4A800000#32))
  let Z : FVec Ideal SBins .f32 := broadcastInDim SBins ![] hb (constant (F := Ideal) SScalar .f32 0x00000000#32)
  mulf (constant (F := Ideal) SScalar .f32 0x41800000#32) (subf (constant (F := Ideal) SScalar .f32 0x41000000#32)
    (Host.negf (F := Ideal) (Host.reduceAdd (F := Ideal)
      (select (cmpf .ogt P Z)
        (mulf P (Host.divf (F := Ideal) (Host.log (F := Ideal) (select (cmpf .ogt P Z) P
            (broadcastInDim SBins ![] hb (id (constant (F := Ideal) SScalar .f32 0x3F800000#32)))))
          (broadcastInDim SBins ![] hb (Host.log (F := Ideal) (constant (F := Ideal) SScalar .f32 0x40000000#32)))))
        (broadcastInDim SBins ![] hb (id (constant (F := Ideal) SScalar .f32 0x00000000#32))))
      (constant (F := Ideal) SScalar .f32 0x00000000#32) hr h0)))

end Cert.Hist

end
-- ==== Proof.KernelStep.lean ====
/-
  One trip of the kernel's loop, read at an entry of the output block.

  Trip k handles the eight bins 8k … 8k+7.  For each such bin b the body counts the entries of the input block whose
  bin word is b (a sum of 0/1 indicators over the whole block) and places that count in lane b of every row of an
  [8,256] array (zero in the other lanes); the eight arrays are added up from zero, and the total is added to the
  accumulator.  So at lane j of any row the trip adds the block's count of bin j when 8k ≤ j < 8k+8, and nothing
  otherwise.
-/
import proofs.«134872_j72679436583685_2_alg».proof.Proof.KernelPieces
import proofs.«134872_j72679436583685_2_alg».proof.Proof.Spec
import Idealize.ShloMosaic.PureOps.Ideal.Laws
import Idealize.ShloMosaic.Lib.ValueIdx

noncomputable section

namespace Cert.KernelIdeal.Step

open Cert.KernelIdeal Cert.KernelIdeal.Gen Cert.KernelIdeal.Pieces
open Idealize.ShloMosaic Idealize.ShloMosaic.ValueIdx

section Generic
variable {F : FTy → Type} [FloatOps F]

/-- The number of entries of the block-sized array `A` equal to `q`, as the body computes it: the indicator of
    equality converted to f32, summed over the whole block. -/
def cntOf (A : FVec F S512x2048 .bf16) (q : F .bf16) : F .f32 :=
  extractAt ![0, 0, 0] (shapeCast S1x1x1 (multiReduction .add [1, 2] S1
    (shapeCast S1x512x2048 (sitofp .f32 (extui 32 (cmpf .oeq A (broadcast S512x2048 q)) natLt_1_32) : FVec F S512x2048 .f32)
      shapeCasts_S512x2048_S1x512x2048) 0x00000000#32 reduces_S1x512x2048_S1 (.inl rfl) rfl) shapeCasts_S1_S1x1x1) inpos_S1x1x1_p0_0_0

/-- One bin's array: the count in the lanes where the lane number `J` equals `q`, zero elsewhere. -/
def binTerm (A : FVec F S512x2048 .bf16) (J : FVec F S8x256 .bf16) (q : F .bf16) : FVec F S8x256 .f32 :=
  select (cmpf .oeq J (broadcast S8x256 q)) (broadcast S8x256 (cntOf A q)) (broadcast S8x256 (Scalar.ofBits .f32 0x00000000#32))

/-- Bin `8k + u` of trip `k` as the body's bf16 value. -/
def binVal (k : Fin k0_t1_loop.trips) (u : BitVec 32) : F .bf16 := Scalar.sitofp .bf16 (Scalar.addi (binBase k) u)

set_option maxRecDepth 65536 in
/-- One trip's update is the accumulator plus the eight bins' arrays added up from zero. -/
theorem stepPay_eq (v3 : Vec F S512x2048 .f32) (k : Fin k0_t1_loop.trips) (g : Vec F S8x256 .f32) :
    stepPay v3 k g = addf (shapeCast S8x256 g shapeCasts_S8x256_S8x256)
      (addf (addf (addf (addf (addf (addf (addf (addf (broadcast S8x256 (Scalar.ofBits .f32 0x00000000#32))
        (binTerm (k0_pay2 v3) k0_pay3 (binVal k 0#32))) (binTerm (k0_pay2 v3) k0_pay3 (binVal k 1#32)))
        (binTerm (k0_pay2 v3) k0_pay3 (binVal k 2#32))) (binTerm (k0_pay2 v3) k0_pay3 (binVal k 3#32)))
        (binTerm (k0_pay2 v3) k0_pay3 (binVal k 4#32))) (binTerm (k0_pay2 v3) k0_pay3 (binVal k 5#32)))
        (binTerm (k0_pay2 v3) k0_pay3 (binVal k 6#32))) (binTerm (k0_pay2 v3) k0_pay3 (binVal k 7#32))) := rfl

end Generic

/-! ## At the extended reals -/

/-- The block-wide sum of the body is the sum over the block's entries. -/
theorem cntOf_eq (A : FVec Ideal S512x2048 .bf16) (q : EReal) :
    cntOf (F := Ideal) A q = ∑ e : S512x2048.Idx, ((((Ideal.cmp .oeq (A e) q).setWidth 32).toInt : ℝ) : EReal) := by
  unfold cntOf
  refine (Ideal.multiReduction_add_total (φ := .f32) _ _ reduces_S1x512x2048_S1 (by decide) (.inl rfl) rfl _).trans ?_
  exact Equiv.sum_comp (Shape.reshapeEquiv shapeCasts_S512x2048_S1x512x2048) _

/-! ### Words -/

/-- A natural number below 2^31, as a 32-bit word read signed, is itself. -/
theorem toInt_ofNat_small (n : ℕ) (hn : n < 2147483648) : (BitVec.ofNat 32 n).toInt = (n : ℤ) := by
  have h1 : (BitVec.ofNat 32 n).toNat = n := by rw [BitVec.toNat_ofNat]; exact Nat.mod_eq_of_lt (by omega)
  rw [BitVec.toInt_eq_toNat_of_lt (by rw [h1]; omega), h1]

/-- The first bin of trip `k` plus `u` is the word of 8k + u. -/
theorem binBase_add (k : Fin k0_t1_loop.trips) (u : ℕ) :
    Scalar.addi (binBase k) (BitVec.ofNat 32 u) = BitVec.ofNat 32 (8 * k.val + u) := by
  unfold binBase Scalar.addi Scalar.muli IntOp.addi IntOp.muli Scf.iv
  apply BitVec.eq_of_toNat_eq
  simp only [BitVec.toNat_add, BitVec.toNat_mul, BitVec.toNat_ofNat, Nat.reducePow, Nat.reduceMod, Nat.mul_one, Nat.zero_add,
    Nat.mod_mod, Nat.zero_mod]
  omega

theorem trips_le : k0_t1_loop.trips ≤ 32 := k0_t1_abs.2.1

/-- The body's bf16 value of bin 8k + u is that number. -/
theorem binVal_eq (k : Fin k0_t1_loop.trips) (u : ℕ) (hu : u < 8) :
    binVal (F := Ideal) k (BitVec.ofNat 32 u) = (((8 * k.val + u : ℕ) : ℝ) : EReal) := by
  have hk := Nat.lt_of_lt_of_le k.isLt trips_le
  show (((Scalar.addi (binBase k) (BitVec.ofNat 32 u)).toInt : ℝ) : EReal) = _
  rw [binBase_add, toInt_ofNat_small _ (by omega)]
  norm_cast

/-- A one-bit word that is the truth value of `p`, widened and read signed, is 1 or 0. -/
theorem toInt_setWidth_ofBool (p : Bool) : ((BitVec.ofBool p).setWidth 32).toInt = if p then 1 else 0 := by
  cases p <;> decide

/-- The select on the truth value of `p`. -/
theorem select_ofBool {α : Type} (p : Prop) [Decidable p] (a b : α) :
    Scalar.select (BitVec.ofBool (decide p)) a b = if p then a else b := by
  by_cases h : p
  · rw [if_pos h, decide_eq_true h]; exact if_pos rfl
  · rw [if_neg h, decide_eq_false h]; exact if_neg (by decide)

/-- Equality of two extended reals that are integers is equality of the integers. -/
theorem coe_int_eq_iff (a b : ℤ) : (((a : ℝ) : EReal) = ((b : ℝ) : EReal)) ↔ a = b := by
  rw [EReal.coe_eq_coe_iff, Int.cast_inj]

/-- The masked bin word of an entry (its bin word if the entry is in range, −1 otherwise) is the word of `n < 256`
    exactly when the entry falls in bin `n`. -/
theorem masked_eq_iff (x : EReal) (n : ℕ) (hn : n < 256) :
    (Scalar.select (Cert.Hist.inRange x) (Cert.Hist.binWord x) 4294967295#32).toInt = (n : ℤ) ↔ Cert.Hist.Hit x n := by
  rw [← toInt_ofNat_small n (by omega), BitVec.toInt_inj]
  unfold Cert.Hist.Hit Scalar.select
  by_cases hv : Cert.Hist.inRange x = 1
  · rw [if_pos hv]; exact ⟨fun h => ⟨hv, h⟩, fun h => h.2⟩
  · rw [if_neg hv]
    refine ⟨fun h => absurd (congrArg BitVec.toNat h) ?_, fun h => absurd h.1 hv⟩
    rw [BitVec.toNat_ofNat]
    show ¬ (4294967295 = n % 4294967296)
    omega

end Cert.KernelIdeal.Step

end
-- ==== Proof.KernelBins.lean ====
/-
  The kernel's loop at the extended reals: what one trip, and all 32 trips, add to an entry of the accumulator.

  The block's entries are turned into "masked bin words" (the integer part of an in-range entry, −1 for the others) and
  compared, as exact numbers, with each bin number 8k + u; the 0/1 results are summed over the block, so the sum is the
  number of the block's entries that fall in that bin.  The count is placed in the lane whose number equals the bin.
  Adding the eight arrays of a trip adds, at lane j, the block's count of bin j exactly when 8k ≤ j < 8k + 8; over
  the 32 trips every lane j < 256 receives the block's count of bin j once.
-/
import proofs.«134872_j72679436583685_2_alg».proof.Proof.KernelStep

noncomputable section

namespace Cert.KernelIdeal.Step

open Cert.KernelIdeal Cert.KernelIdeal.Gen Cert.KernelIdeal.Pieces
open Idealize.ShloMosaic Idealize.ShloMosaic.ValueIdx

/-! ### The two arrays the bins are compared with -/

/-- The block's masked bin words, as bf16 values: entry `e` holds its bin word if it is in range, −1 otherwise. -/
theorem masked_apply (x0 : Vec Ideal S512x2048 .f32) (e : S512x2048.Idx) :
    k0_pay2 (F := Ideal) x0 e
      = (((Scalar.select (Cert.Hist.inRange (x0 e)) (Cert.Hist.binWord (x0 e)) 4294967295#32).toInt : ℝ) : EReal) := by
  unfold k0_pay2
  simp only [shapeCast_self]
  rfl

/-- The lane numbers, as bf16 values: lane `j` of every row holds `j`. -/
theorem lane_apply (r : Fin 8) (j : Fin 256) : k0_pay3 (F := Ideal) (ix2 r j) = ((j.val : ℝ) : EReal) := by
  unfold k0_pay3
  show (((iota .tc S8x256 32 [1] iota_S8x256_d1_w32 (ix2 r j)).toInt : ℝ) : EReal) = _
  rw [iota_single_apply, show ((ix2 r j : S8x256.Idx) 1).val = j.val from rfl, toInt_ofNat_small _ (by have := j.isLt; omega)]
  norm_cast

/-! ### Counting -/

/-- How many entries of a block fall in bin `b`. -/
def blockCount (x0 : S512x2048.Idx → EReal) (b : ℕ) : ℕ := (Finset.univ.filter fun e : S512x2048.Idx => Cert.Hist.Hit (x0 e) b).card

/-- A sum of 0/1 indicators over a finite type, in the extended reals, is the number of the ones. -/
theorem sum_indicator {ι : Type} [Fintype ι] (P : ι → Prop) [DecidablePred P] :
    (∑ e : ι, (((if P e then (1 : ℤ) else 0 : ℤ) : ℝ) : EReal)) = (((Finset.univ.filter P).card : ℝ) : EReal) := by
  have h : ∀ s : Finset ι, (∑ e ∈ s, (((if P e then (1 : ℤ) else 0 : ℤ) : ℝ) : EReal)) = (((s.filter P).card : ℝ) : EReal) := by
    intro s
    classical
    induction s using Finset.induction_on with
    | empty => simp
    | insert a s ha ih =>
      rw [Finset.sum_insert ha, ih, Finset.filter_insert]
      by_cases hp : P a
      · rw [if_pos hp, if_pos hp, Finset.card_insert_of_notMem (fun hm => ha (Finset.mem_filter.1 hm).1)]
        rw [← EReal.coe_add]; norm_cast; omega
      · rw [if_neg hp, if_neg hp]; simp
  exact h Finset.univ

/-- One entry's indicator, as the body computes it. -/
theorem entry_indicator (x : EReal) (n : ℕ) (hn : n < 256) :
    ((((Ideal.cmp .oeq ((((Scalar.select (Cert.Hist.inRange x) (Cert.Hist.binWord x) 4294967295#32).toInt : ℝ)) : EReal)
        (((n : ℕ) : ℝ) : EReal)).setWidth 32).toInt : ℝ) : EReal)
      = (((if Cert.Hist.Hit x n then (1 : ℤ) else 0 : ℤ) : ℝ) : EReal) := by
  have hiff : ((((Scalar.select (Cert.Hist.inRange x) (Cert.Hist.binWord x) 4294967295#32).toInt : ℝ) : EReal)
      = (((n : ℕ) : ℝ) : EReal)) ↔ Cert.Hist.Hit x n := by
    rw [← masked_eq_iff _ _ hn, ← coe_int_eq_iff]
    norm_cast
  show ((((BitVec.ofBool (decide (_ = _))).setWidth 32).toInt : ℝ) : EReal) = _
  rw [toInt_setWidth_ofBool]
  by_cases hh : Cert.Hist.Hit x n
  · rw [if_pos hh, decide_eq_true (hiff.mpr hh)]; rfl
  · rw [if_neg hh, decide_eq_false (fun h => hh (hiff.mp h))]; rfl

/-- The body's count of bin 8k + u over a block is the number of the block's entries that fall in it. -/
theorem cntOf_bin (x0 : Vec Ideal S512x2048 .f32) (k : Fin k0_t1_loop.trips) (u : ℕ) (hu : u < 8) :
    cntOf (F := Ideal) (k0_pay2 x0) (binVal k (BitVec.ofNat 32 u)) = ((blockCount x0 (8 * k.val + u) : ℝ) : EReal) := by
  have hk := Nat.lt_of_lt_of_le k.isLt trips_le
  rw [cntOf_eq, binVal_eq k u hu, blockCount, ← sum_indicator]
  refine Finset.sum_congr rfl fun e _ => ?_
  rw [masked_apply]
  exact entry_indicator (x0 e) (8 * k.val + u) (by omega)

/-- The ordered equality test of two bf16 values is the truth value of their equality. -/
theorem cmpf_oeq_def (x y : EReal) : FloatOps.cmpf (F := Ideal) (φ := .bf16) .oeq x y = BitVec.ofBool (decide (x = y)) := rfl

/-- One bin's array at lane `j`: the block's count of bin `j` if `j` is that bin, zero otherwise. -/
theorem binTerm_apply (x0 : Vec Ideal S512x2048 .f32) (k : Fin k0_t1_loop.trips) (u : ℕ) (hu : u < 8) (r : Fin 8) (j : Fin 256) :
    binTerm (F := Ideal) (k0_pay2 x0) k0_pay3 (binVal k (BitVec.ofNat 32 u)) (ix2 r j)
      = if j.val = 8 * k.val + u then ((blockCount x0 j.val : ℝ) : EReal) else 0 := by
  unfold binTerm
  rw [select_apply, cmpf_apply, broadcast_apply, broadcast_apply, broadcast_apply, cmpf_oeq_def, select_ofBool,
    cntOf_bin x0 k u hu, lane_apply, binVal_eq k u hu]
  have hz : (Scalar.ofBits (F := Ideal) .f32 0x00000000#32 : EReal) = 0 := Ideal.ofBits_zero_f32
  rw [hz]
  have hiff : (((j.val : ℝ) : EReal) = (((8 * k.val + u : ℕ) : ℝ) : EReal)) ↔ j.val = 8 * k.val + u := by
    rw [EReal.coe_eq_coe_iff]; norm_cast
  by_cases hj : j.val = 8 * k.val + u
  · rw [if_pos (hiff.mpr hj), if_pos hj, hj]
  · rw [if_neg (fun h => hj (hiff.mp h)), if_neg hj]

/-! ### One trip, and all of them -/

/-- Eight lanes' worth of "c if d is this lane, else 0", added up from zero over the lanes n … n+7, is c when d is one
    of those lanes and 0 otherwise. -/
theorem eight_terms (c : EReal) (d n : ℕ) :
    (0 : EReal) + (if d = n + 0 then c else 0) + (if d = n + 1 then c else 0) + (if d = n + 2 then c else 0)
      + (if d = n + 3 then c else 0) + (if d = n + 4 then c else 0) + (if d = n + 5 then c else 0)
      + (if d = n + 6 then c else 0) + (if d = n + 7 then c else 0) = if n ≤ d ∧ d < n + 8 then c else 0 := by
  by_cases h : n ≤ d ∧ d < n + 8
  · rw [if_pos h]
    obtain ⟨u, hu, rfl⟩ : ∃ u, u < 8 ∧ d = n + u := ⟨d - n, by omega, by omega⟩
    interval_cases u <;> simp
  · rw [if_neg h, if_neg (by omega), if_neg (by omega), if_neg (by omega), if_neg (by omega), if_neg (by omega),
      if_neg (by omega), if_neg (by omega), if_neg (by omega)]
    simp

/-- One trip at lane `j` of row `r`: the accumulator's entry plus the block's count of bin `j` when `j` is one of
    the trip's eight bins. -/
theorem stepPay_apply (x0 : Vec Ideal S512x2048 .f32) (k : Fin k0_t1_loop.trips) (g : Vec Ideal S8x256 .f32) (r : Fin 8) (j : Fin 256) :
    stepPay (F := Ideal) x0 k g (ix2 r j)
      = g (ix2 r j) + if 8 * k.val ≤ j.val ∧ j.val < 8 * k.val + 8 then ((blockCount x0 j.val : ℝ) : EReal) else 0 := by
  have hz : (Scalar.ofBits (F := Ideal) .f32 0x00000000#32 : EReal) = 0 := Ideal.ofBits_zero_f32
  rw [stepPay_eq]
  simp only [addf_apply, shapeCast_self, broadcast_apply]
  rw [binTerm_apply x0 k 0 (by norm_num), binTerm_apply x0 k 1 (by norm_num), binTerm_apply x0 k 2 (by norm_num),
    binTerm_apply x0 k 3 (by norm_num), binTerm_apply x0 k 4 (by norm_num), binTerm_apply x0 k 5 (by norm_num),
    binTerm_apply x0 k 6 (by norm_num), binTerm_apply x0 k 7 (by norm_num), hz, eight_terms]

/-- The loop makes 32 trips. -/
theorem trips_eq : k0_t1_loop.trips = 32 := by decide

/-- After `k` trips the accumulator's entry at lane `j` has grown by the block's count of bin `j` if that bin is among
    the first 8k. -/
theorem accK_apply (x0 : Vec Ideal S512x2048 .f32) (g : Vec Ideal S8x256 .f32) (r : Fin 8) (j : Fin 256) :
    ∀ k : ℕ, k ≤ k0_t1_loop.trips →
      accK (F := Ideal) x0 k g (ix2 r j) = g (ix2 r j) + if j.val < 8 * k then ((blockCount x0 j.val : ℝ) : EReal) else 0
  | 0, _ => by rw [accK, if_neg (by omega), add_zero]
  | k + 1, hk => by
    have hs := accK_succ (F := Ideal) x0 ⟨k, hk⟩ g
    rw [show (⟨k, hk⟩ : Fin k0_t1_loop.trips).val = k from rfl] at hs
    rw [hs, stepPay_apply, accK_apply x0 g r j k (Nat.le_of_succ_le hk), add_assoc]
    congr 1
    rw [show (⟨k, hk⟩ : Fin k0_t1_loop.trips).val = k from rfl]
    by_cases h1 : j.val < 8 * k
    · rw [if_pos h1, if_neg (by omega), if_pos (by omega), add_zero]
    · by_cases h2 : j.val < 8 * k + 8
      · rw [if_neg h1, if_pos ⟨by omega, h2⟩, if_pos (by omega), zero_add]
      · rw [if_neg h1, if_neg (by omega), if_neg (by omega), add_zero]

/-- After all the trips: every lane has grown by the block's count of its bin. -/
theorem accK_all (x0 : Vec Ideal S512x2048 .f32) (g : Vec Ideal S8x256 .f32) (r : Fin 8) (j : Fin 256) :
    accK (F := Ideal) x0 k0_t1_loop.trips g (ix2 r j) = g (ix2 r j) + ((blockCount x0 j.val : ℝ) : EReal) := by
  rw [accK_apply x0 g r j _ (le_refl _), if_pos (by rw [trips_eq]; have := j.isLt; omega)]

end Cert.KernelIdeal.Step

end
-- ==== Proof.KernelTail.lean ====
/-
  The kernel program's result: the shared tail applied to the sum of two rows of the kernel's output array.

  After the kernel has run, the program takes row 0 and row 8 of the kernel's output array (16 rows of 256 entries), adds
  them entry by entry, and applies to the 256 sums the same arithmetic as the reference applies to its counts: divide by
  2^22, keep the entries that are positive, multiply each by its logarithm to base 2, add up, and 16 · (8 − (−sum)).
  So the program's result is the shared tail of the vector whose entry b is (output at (0, b)) + (output at (8, b)).
-/
import proofs.«134872_j72679436583685_2_alg».proof.Proof.Gen.KernelIdeal.Frame
import proofs.«134872_j72679436583685_2_alg».proof.Proof.Spec
import Idealize.ShloMosaic.Lib.Pipeline.Value

noncomputable section

namespace Cert.Hist.KTail

open Cert.KernelIdeal Cert.KernelIdeal.Gen Idealize.ShloMosaic Idealize.ShloMosaic.TcCoe Idealize.SL.Sem
  Idealize.ShloMosaic.StableHlo Idealize.ShloMosaic.ValueIdx

/-- THE RESULT AFTER THE KERNEL: the shared tail of (row 0 of the output array) + (row 8 of the output array), the
    output array being what the kernel's 64 grid points leave. -/
theorem tail_eq (m : (ℓ : Loc nD τ sig) → Buf (Elt Ideal) ℓ) (c : Dev nD) :
    Pipeline.afterTail₀ cfgs (dats m) 0 (V0 m) [hostOps1, hostOps1_1, hostOps1_2, hostOps1_3, hostOps1_4] c main_v23
      = Cert.Hist.entropyTail bcast_S_S256 reducesTo_S256_S_d0 h_S_
          (addf (shapeCast S256 (extractStridedSlice S1x256 ![0, 0] ((dats m 0 c).arrAt 1 cfg0.N) slices_S16x256_S1x256_0_0) shapeCasts_S1x256_S256)
            (shapeCast S256 (extractStridedSlice S1x256 ![8, 0] ((dats m 0 c).arrAt 1 cfg0.N) slices_S16x256_S1x256_8_0) shapeCasts_S1x256_S256)) := by
  have hA : Pipeline.withArrays (cfgs 0).spec c (V0 m c) (fun w => (dats m 0 c).arrAt w (cfgs 0).N) (Proc.devRef .tc main_v1)
      = (dats m 0 c).arrAt 1 cfg0.N := Pipeline.withArrays_arr spec0 launch0.win.arr_inj c _ _ 1
  unfold Pipeline.afterTail₀
  simp only [hostOps1, hostOps1_1, hostOps1_2, hostOps1_3, hostOps1_4, List.flatten_cons, List.flatten_nil, List.append_nil, List.cons_append, List.nil_append]
  after_results_simp
  rw [hA]
  unfold Cert.Hist.entropyTail
  rfl

/-- Row r of an array of 16 rows of 256 entries, cut out as one row and read as a vector, is at b the array at (r, b). -/
theorem row_apply (A : FVec Ideal S16x256 .f32) (r : ℕ) (hr : r < 16) (hs : S16x256.Slices ![r, 0] S1x256)
    (hc : S1x256.ShapeCasts S256) (b : Fin 256) :
    shapeCast S256 (extractStridedSlice S1x256 ![r, 0] A hs) hc (ix1 b) = A (ix2 (⟨r, hr⟩ : Fin 16) b) := by
  rw [shapeCast_apply _ hc (ix1 b) (ix2 (0 : Fin 1) b) (by
    rw [Shape.rowMajor_val_two, Shape.rowMajor_val_one]
    show 0 * 256 + b.val = b.val
    omega)]
  exact extractStridedSlice_apply ![r, 0] A hs (ix2 (0 : Fin 1) b) (ix2 (⟨r, hr⟩ : Fin 16) b) (fun a => by
    match a with
    | ⟨0, _⟩ => rfl
    | ⟨1, _⟩ => exact (Nat.zero_add _).symm)

/-- THE VECTOR THE TAIL IS APPLIED TO, at b: the array at (0, b) plus the array at (8, b). -/
theorem rows_sum_apply (A : FVec Ideal S16x256 .f32) (b : Fin 256) :
    (addf (shapeCast S256 (extractStridedSlice S1x256 ![0, 0] A slices_S16x256_S1x256_0_0) shapeCasts_S1x256_S256)
        (shapeCast S256 (extractStridedSlice S1x256 ![8, 0] A slices_S16x256_S1x256_8_0) shapeCasts_S1x256_S256)) (ix1 b)
      = A (ix2 (⟨0, by omega⟩ : Fin 16) b) + A (ix2 (⟨8, by omega⟩ : Fin 16) b) := by
  rw [addf_apply, row_apply A 0 (by omega), row_apply A 8 (by omega)]

end Cert.Hist.KTail

end
-- ==== Proof.LibBlockCount.lean ====
/-
  Counting the entries of a matrix that have a property, block of rows by block of rows, and through a reshape.

  A matrix with nb · R rows and C columns is nb blocks of R consecutive rows: the entry at row R · t + r of the matrix
  is the entry at row r of block t, and every row is R · t + r for exactly one block t < nb and one r < R. So the
  entries of the matrix correspond one to one to the pairs (block, entry of the block), and the number of entries with
  a property is the sum over the blocks of the number of entries of the block with the property.

  A reshape reads the same entries in row-major order under another shape: a one-to-one correspondence of the two index
  sets, so the reshaped array has as many entries with a property as the array itself.
-/
import Idealize.ShloMosaic.PureOps.ShapeOps
import Idealize.ShloMosaic.Lib.ValueIdx
import Mathlib.Algebra.BigOperators.Fin

noncomputable section

open scoped BigOperators

namespace Cert.BlockCount

open Idealize.ShloMosaic Idealize.ShloMosaic.ValueIdx

/-! ## Blocks of rows -/

/-- Row r of block t is a row of the matrix. -/
theorem row_lt {nb R : ℕ} {t r : ℕ} (ht : t < nb) (hr : r < R) : R * t + r < nb * R := by
  calc R * t + r < R * t + R := Nat.add_lt_add_left hr _
    _ = R * (t + 1) := (Nat.mul_succ R t).symm
    _ ≤ R * nb := Nat.mul_le_mul_left R ht
    _ = nb * R := Nat.mul_comm R nb

/-- A matrix that has a row has blocks that have a row. -/
theorem rows_pos {nb R n : ℕ} (h : n < nb * R) : 0 < R :=
  Nat.pos_of_ne_zero fun e => by subst e; exact Nat.not_lt_zero _ h

/-- The block of row n. -/
theorem block_lt {nb R n : ℕ} (h : n < nb * R) : n / R < nb :=
  Nat.div_lt_of_lt_mul (by rw [Nat.mul_comm]; exact h)

/-- The entries of a matrix of nb · R rows are the pairs of a block and an entry of the block: the entry at (r, k) of
    block t is the matrix's at (R · t + r, k). -/
def blockEquiv (nb R C : ℕ) : Fin nb × (⟨2, ![R, C]⟩ : Shape).Idx ≃ (⟨2, ![nb * R, C]⟩ : Shape).Idx where
  toFun p := ix2 (⟨R * p.1.val + (p.2 0).val, row_lt p.1.isLt (idx2_lt0 p.2)⟩ : Fin (nb * R)) (⟨(p.2 1).val, idx2_lt1 p.2⟩ : Fin C)
  invFun i :=
    ((⟨(i 0).val / R, block_lt (idx2_lt0 i)⟩ : Fin nb),
      ix2 (⟨(i 0).val % R, Nat.mod_lt _ (rows_pos (idx2_lt0 i))⟩ : Fin R) (⟨(i 1).val, idx2_lt1 i⟩ : Fin C))
  left_inv p := by
    obtain ⟨t, y⟩ := p
    have hr : (y 0).val < R := idx2_lt0 y
    have hR : 0 < R := Nat.lt_of_le_of_lt (Nat.zero_le _) hr
    refine Prod.ext (Fin.ext ?_) (funext fun a => Fin.ext ?_)
    · show (R * t.val + (y 0).val) / R = t.val
      rw [Nat.mul_add_div hR, Nat.div_eq_of_lt hr, Nat.add_zero]
    · match a with
      | ⟨0, _⟩ =>
        show (R * t.val + (y 0).val) % R = (y 0).val
        rw [Nat.mul_add_mod, Nat.mod_eq_of_lt hr]
      | ⟨1, _⟩ => rfl
  right_inv i := by
    refine funext fun a => Fin.ext ?_
    match a with
    | ⟨0, _⟩ =>
      show R * ((i 0).val / R) + (i 0).val % R = (i 0).val
      exact Nat.div_add_mod _ _
    | ⟨1, _⟩ => rfl

/-- The matrix's entry that entry y of block t is. -/
theorem blockEquiv_apply (nb R C : ℕ) (t : Fin nb) (y : (⟨2, ![R, C]⟩ : Shape).Idx) :
    blockEquiv nb R C (t, y)
      = ix2 (⟨R * t.val + (y 0).val, row_lt t.isLt (idx2_lt0 y)⟩ : Fin (nb * R)) (⟨(y 1).val, idx2_lt1 y⟩ : Fin C) := rfl

/-- COUNTING BLOCK BY BLOCK: the number of entries of the matrix with the property is the sum over the blocks of the
    number of entries of the block with it. -/
theorem card_filter_blocks {α : Type} (nb R C : ℕ) (X : (⟨2, ![nb * R, C]⟩ : Shape).Idx → α) (P : α → Prop) [DecidablePred P] :
    (Finset.univ.filter fun i => P (X i)).card
      = ∑ t : Fin nb, (Finset.univ.filter fun y : (⟨2, ![R, C]⟩ : Shape).Idx =>
          P (X (ix2 (⟨R * t.val + (y 0).val, row_lt t.isLt (idx2_lt0 y)⟩ : Fin (nb * R)) (⟨(y 1).val, idx2_lt1 y⟩ : Fin C)))).card := by
  rw [Finset.card_filter, ← Equiv.sum_comp (blockEquiv nb R C) fun i => if P (X i) then 1 else 0, Fintype.sum_prod_type]
  refine Finset.sum_congr rfl fun t _ => ?_
  rw [Finset.card_filter]
  rfl

/-- The same at 64 blocks of 512 rows of a matrix of 32768 rows and 2048 columns. -/
theorem card_filter_blocks_64x512 {α : Type} (X : (⟨2, ![32768, 2048]⟩ : Shape).Idx → α) (P : α → Prop) [DecidablePred P] :
    (Finset.univ.filter fun i => P (X i)).card
      = ∑ t : Fin 64, (Finset.univ.filter fun y : (⟨2, ![512, 2048]⟩ : Shape).Idx =>
          P (X (ix2 (⟨512 * t.val + (y 0).val, row_lt (nb := 64) t.isLt (idx2_lt0 y)⟩ : Fin 32768) (⟨(y 1).val, idx2_lt1 y⟩ : Fin 2048)))).card :=
  card_filter_blocks 64 512 2048 X P

/-! ## A reshape -/

/-- COUNTING THROUGH A RESHAPE: the reshaped array has as many entries with the property as the array. -/
theorem card_filter_shapeCast {α : Type} {s t : Shape} (x : s.Idx → α) (h : s.ShapeCasts t) (P : α → Prop) [DecidablePred P] :
    (Finset.univ.filter fun i : t.Idx => P (shapeCast t x h i)).card = (Finset.univ.filter fun e : s.Idx => P (x e)).card := by
  refine Finset.card_equiv (Shape.reshapeEquiv h) fun i => ?_
  rw [Finset.mem_filter, Finset.mem_filter]
  simp only [Finset.mem_univ, true_and]
  rfl

end Cert.BlockCount

end
-- ==== Proof.KernelBlocks.lean ====
/-
  The blocks the kernel's grid points read are a partition of the image, so their bin counts add up to the image's.

  Before the kernel runs, the image (16 planes of 2048 × 2048 entries) is reshaped to a matrix of 32768 rows and 2048
  columns: the same entries in row-major order. Grid point t (t = 0, …, 63) reads the block of rows 512 · t, …,
  512 · t + 511 of that matrix, all 2048 columns: entry (r, k) of its block is the matrix's entry (512 · t + r, k).
  The 64 blocks are the 64 groups of 512 consecutive rows, so every entry of the matrix is in exactly one block, and the
  number of entries of the image that fall in a bin is the sum over the 64 grid points of the number of entries of the
  point's block that fall in it.
-/
import proofs.«134872_j72679436583685_2_alg».proof.Proof.KernelBins
import proofs.«134872_j72679436583685_2_alg».proof.Proof.LibBlockCount

noncomputable section

open scoped BigOperators

namespace Cert.KernelIdeal.Blocks

open Cert.KernelIdeal Cert.KernelIdeal.Gen Idealize.ShloMosaic Idealize.ShloMosaic.TcCoe Idealize.SL.Sem
  Idealize.ShloMosaic.StableHlo Idealize.ShloMosaic.ValueIdx

variable (m : (ℓ : Loc nD τ sig) → Buf (Elt Ideal) ℓ) (c : Dev nD)

/-- The grid has 64 points. -/
theorem lt_64 (t : Fin cfg0.N) : t.val < 64 := lt_of_lt_of_eq t.isLt (show cfg0.N = 64 from N_0)

/-- Grid point t reads block (t, 0) of the matrix. -/
theorem idx_facts0 : ∀ t : Fin cfg0.N, win0_0.index t (0 : Fin 2) = t.val ∧ win0_0.index t (1 : Fin 2) = 0 :=
  (by decide +kernel : ∀ t : Fin grid0.N, _)

/-- THE MATRIX THE KERNEL READS is the image reshaped to 32768 rows of 2048 entries. -/
theorem V_main_v0 : (V m c main_v0 : S32768x2048.Idx → EReal)
    = shapeCast S32768x2048 (m ((c.tc : Thread nD τ).loc main_arg0)) shapeCasts_S16x2048x2048_S32768x2048 := by
  dsimp only [V, V0]
  simp only [hostOps0, List.flatten_cons, List.flatten_nil, List.append_nil, List.cons_append, List.nil_append]
  after_results
  rfl

/-- THE BLOCK OF GRID POINT t at (r, k) is the matrix at (512 · t + r, k). -/
theorem iblk_apply (t : Fin cfg0.N) (y : S512x2048.Idx) :
    iblk m c 0 t y
      = (V m c main_v0 : S32768x2048.Idx → EReal)
          (ix2 (⟨512 * t.val + (y 0).val, Cert.BlockCount.row_lt (nb := 64) (lt_64 t) (idx2_lt0 y)⟩ : Fin 32768)
            (⟨(y 1).val, idx2_lt1 y⟩ : Fin 2048)) := by
  obtain ⟨e0, e1⟩ := idx_facts0 t
  unfold iblk
  show (V m c main_v0 : S32768x2048.Idx → EReal) (((cfg0.win 0).blk t).view.emb y) = _
  congr 1
  funext a; apply Fin.ext
  match a with
  | ⟨0, _⟩ =>
    show win0_0.index t (0 : Fin 2) * 512 + 1 * (y 0).val = 512 * t.val + (y 0).val
    omega
  | ⟨1, _⟩ =>
    show win0_0.index t (1 : Fin 2) * 2048 + 1 * (y 1).val = (y 1).val
    omega

/-- THE BLOCKS' COUNTS ADD UP TO THE IMAGE'S (the sum over the 64 grid points). -/
theorem blocks_total (b : ℕ) :
    ∑ t : Fin 64, Cert.KernelIdeal.Step.blockCount (iblk m c 0 ⟨t.val, lt_of_lt_of_eq t.isLt (show 64 = cfg0.N from N_0.symm)⟩) b
      = Cert.Hist.count (m ((c.tc : Thread nD τ).loc main_arg0)) b := by
  have h1 := Cert.BlockCount.card_filter_shapeCast (m ((c.tc : Thread nD τ).loc main_arg0))
    shapeCasts_S16x2048x2048_S32768x2048 (fun x => Cert.Hist.Hit x b)
  have h2 := Cert.BlockCount.card_filter_blocks_64x512
    (shapeCast S32768x2048 (m ((c.tc : Thread nD τ).loc main_arg0)) shapeCasts_S16x2048x2048_S32768x2048)
    (fun x => Cert.Hist.Hit x b)
  unfold Cert.Hist.count
  refine Eq.trans ?_ h1
  refine Eq.trans ?_ h2.symm
  refine Finset.sum_congr rfl fun t _ => ?_
  unfold Cert.KernelIdeal.Step.blockCount
  refine congrArg Finset.card (Finset.filter_congr fun y _ => ?_)
  rw [iblk_apply, V_main_v0]

/-- The same with the grid points numbered 0, …, 63. -/
theorem blocks_total_range (b : ℕ) :
    ∑ t ∈ Finset.range 64, (if h : t < cfg0.N then Cert.KernelIdeal.Step.blockCount (iblk m c 0 ⟨t, h⟩) b else 0)
      = Cert.Hist.count (m ((c.tc : Thread nD τ).loc main_arg0)) b := by
  rw [← blocks_total m c b, Finset.sum_range]
  refine Finset.sum_congr rfl fun t _ => ?_
  rw [dif_pos (lt_of_lt_of_eq t.isLt (show 64 = cfg0.N from N_0.symm))]

end Cert.KernelIdeal.Blocks

end
-- ==== Proof.KernelValue.lean ====
/-
  The kernel's output array after the region, and its result.

  Grid point t = 32·q + s handles block t of the flattened image (rows 512·t … 512·t + 511) and accumulates into the
  output block of core q (rows 8·q … 8·q + 7 of the [16,256] array): the first point of a run zero-fills the block, every
  point adds, at lane j of every row, its block's count of bin j, and the last point of the run writes the block back.
  So rows 8·q … 8·q + 7 of the array end at lane j with the sum over the 32 blocks of run q of their counts of bin j; the
  host adds rows 0 and 8, which gives the sum over all 64 blocks — the count of bin j over the whole image — and applies
  the shared tail.
-/
import proofs.«134872_j72679436583685_2_alg».proof.Proof.KernelBins
import proofs.«134872_j72679436583685_2_alg».proof.Proof.KernelTail
import proofs.«134872_j72679436583685_2_alg».proof.Proof.KernelBlocks

noncomputable section

namespace Cert.KernelIdeal.Value

open Cert.KernelIdeal Cert.KernelIdeal.Gen Cert.KernelIdeal.Pieces Cert.KernelIdeal.Step
open Idealize.ShloMosaic Idealize.ShloMosaic.TcCoe Idealize.ShloMosaic.ValueIdx Idealize.SL.Sem
open Idealize.ShloMosaic.Pipeline (Dat)
open Idealize.ShloMosaic.Tactic

theorem hz : (![0, 0] : Fin 2 → Nat) = fun _ => 0 := funext fun a => by fin_cases a <;> rfl

section Generic
variable {F : FTy → Type} [FloatOps F]

/-- The body's load of the input block reads the block. -/
theorem read_in (arg2 : Memref sig .tc .vmem S512x2048 .f32) (harg2 : arg2.IsWhole) (x0 : Vec F S512x2048 .f32) :
    View.readAt (Elt F) arg2.view (Rect.unit (s := S512x2048) ![0, 0] S512x2048.size inb_S512x2048_S512x2048_0_0).toLoadRect (harg2.unread x0) = x0 := by
  rw [View.readAt_eq_ld, harg2.read_unread, View.ld_unit_zero (S := S512x2048) hz]

/-- The pieces of the first k + 1 trips, in front of any older pieces, leave the (k+1)-fold update of what the block
    held at loop entry. -/
theorem canon_succ (𝒱 : Variants) (c : Dev nD) (bd : Option 𝒱.V) (i : grid0.Coords) (arg2 : Memref sig .tc .vmem S512x2048 .f32)
    (harg2 : arg2.IsWhole) (arg3 : Memref sig .tc .vmem S8x256 .f32) (harg3 : arg3.IsWhole) (v3 : Vec F S512x2048 .f32)
    (G : BufTy.Contents (Elt F) arg3.view.ty) (k : Fin k0_t1_loop.trips) (L : List (View.Piece (Elt F) S8x256 .f32)) :
    View.canon (pb_k0_t1 (F := F) 𝒱 c bd i arg2 harg2 arg3 harg3 v3 G (k.val + 1) ++ L)
      = accK v3 (k.val + 1) (View.readAt (Elt F) arg3.view ROut.toLoadRect G) := by
  rw [pieces_succ, List.cons_append, View.canon_cons_unit_zero (S := S8x256) hz]

/-- A run's later points: the body turns the block's contents `xo` into their 32-fold update by the input block. -/
theorem out_B (c : Dev nD) (i : grid0.Coords) (a2 : Memref sig .tc .vmem S512x2048 .f32) (h2 : a2.IsWhole)
    (a3 : Memref sig .tc .vmem S8x256 .f32) (h3 : a3.IsWhole) (hc : ¬cond0_0 i) (x0 : Vec F S512x2048 .f32) (xo : Vec F S8x256 .f32) :
    out0_B_1 c i a2 h2 a3 h3 hc x0 xo = accK x0 k0_t1_loop.trips xo := by
  unfold out0_B_1
  rw [View.read_writes_junk_eq_canon]
  unfold kernelRun0_B
  dsimp only
  rw [read_in]
  show View.canon (pb_k0_t1 _ _ _ _ _ _ _ _ _ _ k0_t1_loop.trips) = _
  rw [trips_eq]
  have h := canon_succ (F := F) Variants.none c none i a2 h2 a3 h3 x0 (h3.unread xo) ⟨31, by rw [trips_eq]; norm_num⟩ []
  rw [List.append_nil] at h
  refine h.trans ?_
  rw [View.readAt_eq_ld, h3.read_unread, View.ld_unit_zero (S := S8x256) hz]

/-- A run's first point: the same from the zero block. -/
theorem out_A (c : Dev nD) (i : grid0.Coords) (a2 : Memref sig .tc .vmem S512x2048 .f32) (h2 : a2.IsWhole)
    (a3 : Memref sig .tc .vmem S8x256 .f32) (h3 : a3.IsWhole) (hc : cond0_0 i) (x0 : Vec F S512x2048 .f32) :
    out0_A_1 c i a2 h2 a3 h3 hc x0 = accK x0 k0_t1_loop.trips (k0_pay1 (F := F)) := by
  unfold out0_A_1
  rw [View.read_writes_junk_eq_canon]
  unfold kernelRun0_A
  dsimp only
  sl_unfold_run_names
  rw [read_in]
  show View.canon (pb_k0_t1 _ _ _ _ _ _ _ _ _ _ k0_t1_loop.trips ++ _) = _
  rw [trips_eq]
  refine (canon_succ (F := F) Variants.none c none i a2 h2 a3 h3 x0 _ ⟨31, by rw [trips_eq]; norm_num⟩ _).trans ?_
  rw [View.readAt_writes_cons_unit_zero a3.view hz]

end Generic

section AtIdeal
variable (m : (ℓ : Loc nD τ sig) → Buf (Elt Ideal) ℓ)

/-- The count of bin `j` over the input block of grid point `n` (0 past the grid). -/
def McN (c : Dev nD) (n j : ℕ) : ℕ := if h : n < cfg0.N then blockCount (iblk m c 0 ⟨n, h⟩) j else 0

/-- The same as an extended real. -/
def McL (c : Dev nD) (n j : ℕ) : EReal := ((McN m c n j : ℝ) : EReal)

/-- At an entry of the output block: it depends on the lane only. -/
def Mc (c : Dev nD) (n : ℕ) (i : S8x256.Idx) : EReal := McL m c n (i 1).val

theorem Mc_apply (c : Dev nD) (t : Fin cfg0.N) (r : Fin 8) (j : Fin 256) :
    Mc m c t.val (ix2 r j) = ((blockCount (iblk m c 0 t) j.val : ℝ) : EReal) := by
  unfold Mc McL McN; rw [dif_pos t.isLt]

/-- The first point of a run leaves zero plus its block's counts. -/
theorem first_apply (c : Dev nD) (t : Fin cfg0.N) (h0 : t.val % 32 = 0) (i : S8x256.Idx) :
    outsAt0 m c t.val t.isLt i = 0 + Mc m c t.val i := by
  obtain ⟨r, j, rfl⟩ : ∃ (r : Fin 8) (j : Fin 256), i = ix2 r j := ⟨i 0, i 1, eq_ix2 i⟩
  have hz0 : (Scalar.ofBits (F := Ideal) .f32 0x00000000#32 : EReal) = 0 := Ideal.ofBits_zero_f32
  rw [outsAt0_A m c t h0, out_A, accK_all, Mc_apply]
  unfold k0_pay1
  rw [broadcast_apply, hz0]

/-- Every later point adds its block's counts to what the point before left. -/
theorem later_apply (c : Dev nD) (t : Fin cfg0.N) (h0 : ¬t.val % 32 = 0) (i : S8x256.Idx) :
    outsAt0 m c t.val t.isLt i
      = outsAt0 m c (t.val - 1) (Nat.lt_of_le_of_lt (Nat.sub_le _ _) t.isLt) i + Mc m c t.val i := by
  obtain ⟨r, j, rfl⟩ : ∃ (r : Fin 8) (j : Fin 256), i = ix2 r j := ⟨i 0, i 1, eq_ix2 i⟩
  rw [outsAt0_B m c t h0, out_B, accK_all, Mc_apply]

/-- What the output block holds after point t = 32·q + s: zero plus the counts of the blocks of points 32·q … 32·q + s. -/
theorem outsAt_apply (c : Dev nD) (t : Fin cfg0.N) (i : S8x256.Idx) :
    outsAt0 m c t.val t.isLt i = 0 + ∑ s ∈ Finset.range (t.val % 32 + 1), Mc m c (32 * (t.val / 32) + s) i := by
  have hN : cfg0.N = 64 := N_0
  have h' : 32 * (t.val / 32) + t.val % 32 < cfg0.N := by have := t.isLt; omega
  rw [Pipeline.eq_accAt_of_mod (fun n h => outsAt0 m c n h) 32 (fun n _ => fun i => 0 + Mc m c n i)
      (fun n _ acc => fun i => acc i + Mc m c n i)
      (fun n h hn => funext fun i => first_apply m c ⟨n, h⟩ hn i)
      (fun n h hn => funext fun i => later_apply m c ⟨n + 1, h⟩ hn i)
      (by norm_num) t.val t.isLt h']
  exact Pipeline.accAt_add_apply _ _ (fun _ => 0) (fun n i => Mc m c n i) (32 * (t.val / 32)) 31 (fun _ _ => rfl)
    (fun _ _ _ _ _ _ => rfl) (t.val % 32) (by omega) h' i

end AtIdeal

section Final
variable (m : (ℓ : Loc nD τ sig) → Buf (Elt Ideal) ℓ)

/-- The output window's block index at point t is (t / 32, 0) — decided over the grid. -/
theorem idx_facts1 : ∀ t : Fin cfg0.N, win0_1.index t (0 : Fin 2) = t.val / 32 ∧ win0_1.index t (1 : Fin 2) = 0 :=
  (by decide +kernel : ∀ t : Fin grid0.N, win0_1.index t (0 : Fin 2) = t.val / 32 ∧ win0_1.index t (1 : Fin 2) = 0)

/-- The output array after the region: row 8·q + r holds, at lane j, zero plus the counts of bin j over the 32 blocks of run q. -/
def G (c : Dev nD) (i : S16x256.Idx) : EReal := 0 + ∑ s ∈ Finset.range 32, McL m c (32 * ((i 0).val / 8) + s) (i 1).val

/-- The last point of a run writes back its block of `G`. -/
theorem flushed_eq (c : Dev nD) (t : Fin cfg0.N) (hf : (cfg0.win 1).flush t = true) :
    (dats m 0 c).flushed 1 t = ((cfg0.win 1).blk t).view.read (Elt Ideal) (G m c) := by
  have h31 : t.val % 32 = 31 := (flush0_1 t).mp hf
  obtain ⟨e0, e1⟩ := idx_facts1 t
  show (cfg0.win 1).cut (grid0.coords t) ((dats m 0 c).after 1 t) = _
  rw [after0_1]
  funext y
  show outsAt0 m c t.val t.isLt y = G m c (((cfg0.win 1).blk t).view.emb y)
  rw [outsAt_apply, h31]
  unfold G
  have hr : ((((cfg0.win 1).blk t).view.emb y) 0).val = win0_1.index t (0 : Fin 2) * 8 + 1 * (y 0).val := rfl
  have hc : ((((cfg0.win 1).blk t).view.emb y) 1).val = win0_1.index t (1 : Fin 2) * 256 + 1 * (y 1).val := rfl
  have hy0 : (y 0).val < 8 := (y 0).isLt
  rw [hr, hc, e0, e1, show (t.val / 32 * 8 + 1 * (y 0).val) / 8 = t.val / 32 by omega,
    show 0 * 256 + 1 * (y 1).val = (y 1).val by omega]
  rfl

/-- An index of the array is in point t's block iff each coordinate is in the block's range. -/
theorem mem_blk1 (t : Fin cfg0.N) (i : S16x256.Idx) :
    i ∈ ((cfg0.win 1).blk t).view.set ↔ ∀ a : Fin 2, win0_1.index t a * S8x256.size a ≤ (i a).val ∧ (i a).val < win0_1.index t a * S8x256.size a + S8x256.size a := by
  show i ∈ ((View.whole main_v1).slice (win0_1.rect t)).set ↔ _
  rw [View.set_slice_whole, Rect.mem_set_unit]
  exact Iff.rfl

/-- So the array ends holding `G`: row i₀ is covered by the last point of run i₀ / 8. -/
theorem final (c : Dev nD) : (dats m 0 c).arrAt 1 cfg0.N = G m c :=
  (dats m 0 c).arrAt_eq_of_cover 1 (G m c) (flushed_eq m c) fun i => by
    have hi0 : (i 0).val < 16 := (i 0).isLt
    have hi1 : (i 1).val < 256 := (i 1).isLt
    have hN : cfg0.N = 64 := N_0
    obtain ⟨e0, e1⟩ := idx_facts1 ⟨32 * ((i 0).val / 8) + 31, by omega⟩
    refine ⟨⟨32 * ((i 0).val / 8) + 31, by omega⟩, (flush0_1 _).mpr (by show (32 * ((i 0).val / 8) + 31) % 32 = 31; omega), ?_⟩
    rw [mem_blk1]
    intro a
    match a with
    | ⟨0, _⟩ =>
      show win0_1.index _ (0 : Fin 2) * 8 ≤ (i 0).val ∧ (i 0).val < win0_1.index _ (0 : Fin 2) * 8 + 8
      rw [e0]; show (32 * ((i 0).val / 8) + 31) / 32 * 8 ≤ (i 0).val ∧ (i 0).val < (32 * ((i 0).val / 8) + 31) / 32 * 8 + 8; omega
    | ⟨1, _⟩ =>
      show win0_1.index _ (1 : Fin 2) * 256 ≤ (i 1).val ∧ (i 1).val < win0_1.index _ (1 : Fin 2) * 256 + 256
      rw [e1]; omega

end Final

section Result
variable (m : (ℓ : Loc nD τ sig) → Buf (Elt Ideal) ℓ) (ρ : Dev nD → PrngReg)

/-- A finite sum of natural numbers, cast term by term into the extended reals, is the cast of the sum. -/
theorem coe_nat_sum (S : Finset ℕ) (f : ℕ → ℕ) :
    ∑ s ∈ S, (((f s : ℕ) : ℝ) : EReal) = (((∑ s ∈ S, f s : ℕ) : ℝ) : EReal) := by
  induction S using Finset.induction_on with
  | empty => simp
  | insert a S ha ih => rw [Finset.sum_insert ha, Finset.sum_insert ha, ih, ← EReal.coe_add]; norm_cast

/-- Rows 0 and 8 of the array, added at lane b: the counts of bin b over all 64 blocks. -/
theorem rows_total (c : Dev nD) (b : Fin 256) :
    G m c (ix2 (⟨0, by norm_num⟩ : Fin 16) b) + G m c (ix2 (⟨8, by norm_num⟩ : Fin 16) b)
      = (((∑ t ∈ Finset.range 64, McN m c t b.val : ℕ) : ℝ) : EReal) := by
  unfold G McL
  show ((0 : EReal) + ∑ s ∈ Finset.range 32, ((McN m c (32 * (0 / 8) + s) b.val : ℝ) : EReal))
    + (0 + ∑ s ∈ Finset.range 32, ((McN m c (32 * (8 / 8) + s) b.val : ℝ) : EReal)) = _
  have e1 : ∀ s : ℕ, 32 * (0 / 8) + s = s := fun s => by omega
  have e2 : ∀ s : ℕ, 32 * (8 / 8) + s = 32 + s := fun s => by omega
  simp only [e1, e2]
  rw [zero_add, zero_add, coe_nat_sum, coe_nat_sum, ← EReal.coe_add, show (64 : ℕ) = 32 + 32 from rfl, Finset.sum_range_add]
  norm_cast

/-- The vector the host's tail is applied to is the vector of the image's counts. -/
theorem kernel_counts (c : Dev nD) :
    (addf (shapeCast S256 (extractStridedSlice S1x256 ![0, 0] ((dats m 0 c).arrAt 1 cfg0.N) slices_S16x256_S1x256_0_0) shapeCasts_S1x256_S256)
        (shapeCast S256 (extractStridedSlice S1x256 ![8, 0] ((dats m 0 c).arrAt 1 cfg0.N) slices_S16x256_S1x256_8_0) shapeCasts_S1x256_S256) : FVec Ideal S256 .f32)
      = Cert.Hist.countsVec (m ((c.tc : Thread nD τ).loc main_arg0)) := by
  funext i
  obtain ⟨b, rfl⟩ : ∃ b : Fin 256, i = ix1 b := ⟨i 0, eq_ix1 i⟩
  rw [Cert.Hist.KTail.rows_sum_apply, final, rows_total]
  unfold Cert.Hist.countsVec
  rw [← Cert.KernelIdeal.Blocks.blocks_total_range m c b.val]
  rfl

/-- The kernel's run: the result ends at the shared tail of the image's counts, the argument unchanged. -/
theorem run : θ_run defs (onTc (τ := τ) (main (F := Ideal))) ⟨m, fun _ => 0, ρ⟩ fun r => ∀ c : Dev nD,
      r.2.mem ((c.tc : Thread nD τ).loc main_v23)
        = Cert.Hist.entropyTail bcast_S_S256 reducesTo_S256_S_d0 h_S_ (Cert.Hist.countsVec (m ((c.tc : Thread nD τ).loc main_arg0)))
      ∧ r.2.mem ((c.tc : Thread nD τ).loc main_arg0) = m ((c.tc : Thread nD τ).loc main_arg0) :=
  (θ_run defs _ _).mono (fun _ h c =>
      ⟨(((h c).2 main_v23 (Pipeline.mem_restRefs_of main_v23 (by decide) (by decide))).trans (Cert.Hist.KTail.tail_eq m c)).trans
          (congrArg (Cert.Hist.entropyTail bcast_S_S256 reducesTo_S256_S_d0 h_S_) (kernel_counts m c)),
        ((h c).2 main_arg0 (Pipeline.mem_restRefs_of main_arg0 (by decide) (by decide))).trans (W_main_arg0 m (dats m) c)⟩)
    (run_main m ρ)

end Result

end Cert.KernelIdeal.Value

end
-- ==== Proof.BinRange.lean ====
/-
  The bins of the histogram are the numbers 0 … 255.

  An entry x counts only when 0 ≤ x and x < 256 (the words 0x00000000 and 0x43800000 denote the reals 0 and 256). Such an
  x is a real number r with 0 ≤ r < 256, its integer part ⌊r⌋ is one of 0, …, 255, and the conversion to a signed
  32-bit word does not clamp it: the word of x is the word of a natural number below 256.
-/
import proofs.«134872_j72679436583685_2_alg».proof.Proof.Spec

noncomputable section

namespace Cert.Hist

open Idealize.ShloMosaic

/-- The word 0x00000000 denotes the real 0. -/
theorem ofBits_f32_zero : Ideal.ofBits .f32 0x00000000#32 = 0 := by
  simp [Ideal.ofBits, Ideal.ieee]

/-- The word 0x43800000 denotes the real 256. -/
theorem ofBits_f32_256 : Ideal.ofBits .f32 0x43800000#32 = ((256 : ℝ) : EReal) := by
  simp [Ideal.ofBits, Ideal.ieee, -EReal.coe_mul]; norm_num

/-- A conjunction of two one-bit words is 1 exactly when both are. -/
theorem andi_eq_one_iff (a b : BitVec 1) : IntOp.andi a b = 1#1 ↔ a = 1#1 ∧ b = 1#1 := by
  unfold IntOp.andi
  revert a b
  decide

/-- The one-bit word of a truth value is 1 exactly when it is true. -/
theorem ofBool_eq_one_iff (b : Bool) : BitVec.ofBool b = 1#1 ↔ b = true := by
  cases b <;> decide

/-- The in-range bit is 1 exactly when 0 ≤ x < 256. -/
theorem inRange_eq_one_iff (x : EReal) : inRange x = 1#1 ↔ (0 : EReal) ≤ x ∧ x < ((256 : ℝ) : EReal) := by
  unfold inRange
  rw [andi_eq_one_iff, ofBits_f32_zero, ofBits_f32_256]
  unfold Ideal.cmp
  simp only [ofBool_eq_one_iff, decide_eq_true_eq]

/-- An in-range entry is a real number r with 0 ≤ r < 256. -/
theorem exists_real_of_inRange (x : EReal) (h : inRange x = 1#1) : ∃ r : ℝ, x = (r : EReal) ∧ 0 ≤ r ∧ r < 256 := by
  obtain ⟨h0, h1⟩ := (inRange_eq_one_iff x).mp h
  induction x using EReal.rec with
  | bot => exact absurd h0 (by simp)
  | top => exact absurd h1 (by simp)
  | coe r =>
    refine ⟨r, rfl, ?_, ?_⟩
    · exact_mod_cast h0
    · exact_mod_cast h1

/-- The word of a real r with 0 ≤ r < 256 is the word of the natural number ⌊r⌋. -/
theorem binWord_coe (r : ℝ) (h0 : 0 ≤ r) (h1 : r < 256) :
    binWord (r : EReal) = BitVec.ofNat 32 ⌊r⌋.toNat ∧ ⌊r⌋.toNat < 256 := by
  have hf0 : 0 ≤ ⌊r⌋ := Int.floor_nonneg.mpr h0
  have hf1 : ⌊r⌋ < 256 := Int.floor_lt.mpr (by exact_mod_cast h1)
  have hr : (0 : ℝ) ≤ ((⌊r⌋ : ℤ) : ℝ) := by exact_mod_cast hf0
  refine ⟨?_, by omega⟩
  show BitVec.ofInt 32 (max (-((2 ^ (32 - 1) : Nat) : Int)) (min (((2 ^ (32 - 1) : Nat) : Int) - 1)
      (if (0 : ℝ) ≤ ((⌊r⌋ : ℤ) : ℝ) then ⌊((⌊r⌋ : ℤ) : ℝ)⌋ else ⌈((⌊r⌋ : ℤ) : ℝ)⌉))) = _
  rw [if_pos hr, Int.floor_intCast]
  have e : max (-((2 ^ (32 - 1) : Nat) : Int)) (min (((2 ^ (32 - 1) : Nat) : Int) - 1) ⌊r⌋) = ((⌊r⌋.toNat : Nat) : Int) := by
    norm_num
    omega
  rw [e, BitVec.ofInt_natCast]

/-- THE BINS ARE 0 … 255: the word of an in-range entry is the word of a natural number below 256. -/
theorem binWord_of_inRange (x : EReal) (h : inRange x = 1#1) : ∃ n : ℕ, n < 256 ∧ binWord x = BitVec.ofNat 32 n := by
  obtain ⟨r, rfl, h0, h1⟩ := exists_real_of_inRange x h
  exact ⟨⌊r⌋.toNat, (binWord_coe r h0 h1).2, (binWord_coe r h0 h1).1⟩

end Cert.Hist

end
-- ==== Proof.LibSegmentRows.lean ====
/-
  Rows gathered and rows scatter-added, read at an entry; and the law that a linear map applied to every row commutes
  with a weighted segment sum of rows.

  A graph layer aggregates over edges: for every edge e it takes row src(e) of a node table x : [N, C]
  (stablehlo.gather with offset_dims [1], collapsed_slice_dims [0], start_index_map [0], index_vector_dim 1 and slice
  sizes [1, C], the start indices an [E, 1] integer array), scales the row by the edge's weight, and adds it into row
  tgt(e) of a zero [N, C] table (stablehlo.scatter with an add body, update_window_dims [1], inserted_window_dims [0],
  scatter_dims_to_operand_dims [0], index_vector_dim 1, the scatter indices again an [E, 1] integer array).

  Read at the extended reals:
    * the gathered array at (e, c) is x at (row e, c), where row e is the start index of edge e read as a signed
      integer and clamped into [0, N − 1]: it depends neither on the column c nor on the width C;
    * the scatter-add at (n, c) is the operand's entry plus the sum over the edges e whose scatter index, read as a
      signed integer, IS n, of the update's entry (e, c); an edge whose index is negative or ≥ N is equal to no n and
      contributes nowhere. Again the condition depends neither on c nor on C.
  Hence a linear map of the rows (y ↦ y · Wᵀ) may be applied before the gather or after the scatter-add, as long as
  every entry involved is a REAL number: the two sides are the two ways of bracketing
      Σ_{e : tgt e = n} Σ_k x(row e, k) · w(e) · W(o, k),
  equal by distributivity over the reals. Over arbitrary extended reals distributivity fails (∞ − ∞), so realness
  of the entries is a hypothesis.
-/
import Idealize.ShloMosaic.Lib.ValueIdx
import Idealize.ShloMosaic.PureOps.Ideal.Laws

noncomputable section

open scoped BigOperators

namespace Idealize.ShloMosaic.SegmentRows

open Idealize.ShloMosaic Idealize.ShloMosaic.ValueIdx

/-- Of the two axes of a matrix, the one that is not axis 0 is axis 1. -/
theorem kept_zero {N C : Nat} : (⟨2, ![N, C]⟩ : Shape).kept [0] = [1] := rfl
/-- The same with an empty list of further axes appended. -/
theorem kept_zero_nil {N C : Nat} : (⟨2, ![N, C]⟩ : Shape).kept ([0] ++ []) = [1] := rfl

/-! ## The row gather read at an entry -/

section Gather
variable {α : Type}

/-- The dimension numbers of "take rows": operand [N, C], start indices [E, 1], result [E, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge e reads: its start index as a signed integer, clamped into [0, N − 1]. -/
def rowOf {N E w : Nat} (hN : 0 < N) (idx : IVec ⟨2, ![E, 1]⟩ w) (e : Fin E) : Fin N :=
  ⟨min (idx (ix2 e 0)).toInt.toNat (N - 1), by omega⟩

variable {N E C w : Nat} (wf : GatherDims.WF ⟨2, ![N, C]⟩ ⟨2, ![E, 1]⟩ ⟨2, ![E, C]⟩ [1] [0] [] [0] [] 1 ![1, C])
  (idx : IVec ⟨2, ![E, 1]⟩ w) (e : Fin E) (c : Fin C)

/-- On the row axis the operand index is the clamped start index … -/
theorem operandIdx_row :
    ((rowGatherDims N E C wf).operandIdx (ix2 e c) idx 0).val = min (idx (ix2 e 0)).toInt.toNat (N - 1) := by
  show (rowGatherDims N E C wf).start (ix2 e c) idx 0 + (rowGatherDims N E C wf).batchCoord (ix2 e c) 0
      + (rowGatherDims N E C wf).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx (ix2 e c) ⟨List.idxOf (0 : Fin 2) (rowGatherDims N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and on the column axis it is the result's column. -/
theorem operandIdx_col :
    ((rowGatherDims N E C wf).operandIdx (ix2 e c) idx 1).val = c.val := by
  show (rowGatherDims N E C wf).start (ix2 e c) idx 1 + (rowGatherDims N E C wf).batchCoord (ix2 e c) 1
      + (rowGatherDims N E C wf).offCoord (ix2 e c) 1 = _
  rw [GatherDims.batchCoord_eq_zero _ _ _ List.not_mem_nil]
  unfold GatherDims.start
  rw [dif_neg (by decide : ¬ (1 : Fin 2) ∈ ([0] : List (Fin 2)))]
  unfold GatherDims.offCoord
  rw [dif_pos (by rw [GatherDims.sKept, kept_zero_nil]; exact List.mem_singleton.mpr rfl)]
  simp only [Nat.zero_add]
  rfl

/-- THE ROW GATHER AT (e, c): the operand at (row e, c). -/
theorem gather_rows_apply (hN : 0 < N) (x : (⟨2, ![N, C]⟩ : Shape).Idx → α) :
    Host.gather (rowGatherDims N E C wf) x idx (ix2 e c) = x (ix2 (rowOf hN idx e) c) := by
  unfold Host.gather
  congr 1
  funext a
  refine Fin.ext ?_
  match a with
  | ⟨0, _⟩ => exact operandIdx_row wf idx e c
  | ⟨1, _⟩ => exact operandIdx_col wf idx e c

end Gather

/-! ## The row scatter-add read at an entry -/

section Scatter

/-- The dimension numbers of "add rows into rows": operand [N, C], scatter indices [E, 1], updates [E, C]. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- The window of update (e, c) starts, on the row axis, at edge e's scatter index read signed … -/
theorem start_row : (rowScatterDims N E C wf).start (ix2 e c) idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e c)
      ⟨List.idxOf (0 : Fin 2) (rowScatterDims N E C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and at 0 on the column axis; -/
theorem start_col : (rowScatterDims N E C wf).start (ix2 e c) idx 1 = 0 := by
  unfold ScatterDims.start
  rw [dif_neg (by decide : ¬ (1 : Fin 2) ∈ ([0] : List (Fin 2)))]

/-- its window coordinate is 0 on the row axis (an inserted axis) … -/
theorem window_row : (rowScatterDims N E C wf).window (ix2 e c) 0 = 0 := by
  unfold ScatterDims.window
  rw [dif_neg (by rw [ScatterDims.sKept, kept_zero]; exact fun h => absurd (List.mem_singleton.mp h) (by decide : (0 : Fin 2) ≠ 1))]

/-- … and the update's column on the column axis. -/
theorem window_col : (rowScatterDims N E C wf).window (ix2 e c) 1 = c.val := by
  unfold ScatterDims.window
  rw [dif_pos (by rw [ScatterDims.sKept, kept_zero]; exact List.mem_singleton.mpr rfl)]
  rfl

/-- WHERE UPDATE (e, c) LANDS: at (n, c') exactly when edge e's scatter index, read signed, is n, and c' = c. An index
    that is negative or at least N is no n: that update is dropped. -/
theorem resultIdx?_eq_some_iff (n : Fin N) (c' : Fin C) :
    (rowScatterDims N E C wf).resultIdx? (ix2 e c) idx = some (ix2 n c')
      ↔ (idx (ix2 e 0)).toInt = (n.val : Int) ∧ c = c' := by
  unfold ScatterDims.resultIdx?
  constructor
  · intro h
    split at h
    · rename_i hr
      have hf := Option.some.inj h
      have h0 := congrArg (fun f => (f 0).val) hf
      have h1 := congrArg (fun f => (f 1).val) hf
      simp only [start_row, start_col, window_row, window_col] at h0 h1
      have hr0 := hr 0
      rw [start_row, window_row] at hr0
      refine ⟨?_, Fin.ext ?_⟩
      · have : ((ix2 n c' : (⟨2, ![N, C]⟩ : Shape).Idx) 0).val = n.val := rfl
        omega
      · have : ((ix2 n c' : (⟨2, ![N, C]⟩ : Shape).Idx) 1).val = c'.val := rfl
        omega
    · exact absurd h (by simp)
  · rintro ⟨ht, rfl⟩
    have hr : ∀ a, 0 ≤ (rowScatterDims N E C wf).start (ix2 e c) idx a + (rowScatterDims N E C wf).window (ix2 e c) a
        ∧ (rowScatterDims N E C wf).start (ix2 e c) idx a + (rowScatterDims N E C wf).window (ix2 e c) a
          < (⟨2, ![N, C]⟩ : Shape).size a := by
      intro a
      match a with
      | ⟨0, _⟩ =>
        show 0 ≤ (rowScatterDims N E C wf).start (ix2 e c) idx 0 + (rowScatterDims N E C wf).window (ix2 e c) 0
          ∧ (rowScatterDims N E C wf).start (ix2 e c) idx 0 + (rowScatterDims N E C wf).window (ix2 e c) 0 < (N : Int)
        rw [start_row, window_row, ht]
        have := n.isLt
        omega
      | ⟨1, _⟩ =>
        show 0 ≤ (rowScatterDims N E C wf).start (ix2 e c) idx 1 + (rowScatterDims N E C wf).window (ix2 e c) 1
          ∧ (rowScatterDims N E C wf).start (ix2 e c) idx 1 + (rowScatterDims N E C wf).window (ix2 e c) 1 < (C : Int)
        rw [start_col, window_col]
        have := c.isLt
        omega
    rw [dif_pos hr]
    congr 1
    funext a
    refine Fin.ext ?_
    match a with
    | ⟨0, _⟩ =>
      show ((rowScatterDims N E C wf).start (ix2 e c) idx 0 + (rowScatterDims N E C wf).window (ix2 e c) 0).toNat = n.val
      rw [start_row, window_row, ht]; simp
    | ⟨1, _⟩ =>
      show ((rowScatterDims N E C wf).start (ix2 e c) idx 1 + (rowScatterDims N E C wf).window (ix2 e c) 1).toNat = c.val
      rw [start_col, window_col]; simp

/-- THE ROW SCATTER-ADD AT (n, c): the operand's entry plus the update's entries (e, c) over the edges e whose scatter
    index is n. -/
theorem hostScatterAdd_rows_apply (x : (⟨2, ![N, C]⟩ : Shape).Idx → EReal) (upd : (⟨2, ![E, C]⟩ : Shape).Idx → EReal)
    (n : Fin N) :
    Ideal.hostScatterAdd (rowScatterDims N E C wf) x idx upd (ix2 n c)
      = x (ix2 n c) + ∑ e : Fin E, if (idx (ix2 e 0)).toInt = (n.val : Int) then upd (ix2 e c) else 0 := by
  unfold Ideal.hostScatterAdd
  congr 1
  rw [Finset.sum_filter, sum_idx2]
  refine Finset.sum_congr rfl fun e _ => ?_
  simp only [resultIdx?_eq_some_iff]
  by_cases ht : (idx (ix2 e 0)).toInt = (n.val : Int)
  · simp only [ht, true_and, if_true]
    rw [Finset.sum_ite_eq' Finset.univ c (fun c'' => upd (ix2 e c''))]
    simp
  · simp [ht]

end Scatter

/-! ## A linear map commutes with a weighted segment sum, over real entries -/

section Algebra

open Finset

/-- The coercion of the reals into the extended reals commutes with finite sums. -/
theorem coe_finset_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion commutes with a choice between a real and zero. -/
theorem ite_coe (P : Prop) [Decidable P] (r : ℝ) :
    (if P then ((r : ℝ) : EReal) else 0) = (((if P then r else 0) : ℝ) : EReal) := by
  split <;> simp

/-- Over the reals: contracting the segment sum of the weighted rows a(e, ·) · v(e) with W equals the segment sum of the
    weighted contractions (Σ_k a(e, k) · W(k)) · v(e): each side is Σ_{e : P e} Σ_k a(e, k) · v(e) · W(k). -/
theorem segment_commute_real {ι κ : Type*} [Fintype ι] [Fintype κ] (P : ι → Prop) [DecidablePred P]
    (a : ι → κ → ℝ) (v : ι → ℝ) (W : κ → ℝ) :
    ∑ k, (∑ e, if P e then a e k * v e else 0) * W k = ∑ e, if P e then (∑ k, a e k * W k) * v e else 0 := by
  have hl : ∀ k, (∑ e, if P e then a e k * v e else 0) * W k = ∑ e, if P e then a e k * W k * v e else 0 := by
    intro k
    rw [Finset.sum_mul]
    refine Finset.sum_congr rfl fun e _ => ?_
    split
    · ring
    · simp
  rw [Finset.sum_congr rfl fun k _ => hl k, Finset.sum_comm]
  refine Finset.sum_congr rfl fun e _ => ?_
  split
  · rw [Finset.sum_mul]
  · simp

/-- The same over the extended reals, for families whose entries are all real numbers; the segment sums start from
    the zero a scatter-add's zero operand contributes. -/
theorem segment_commute_ereal {ι κ : Type*} [Fintype ι] [Fintype κ] (P : ι → Prop) [DecidablePred P]
    (a : ι → κ → EReal) (v : ι → EReal) (W : κ → EReal)
    (ha : ∀ e k, ∃ r : ℝ, a e k = (r : EReal)) (hv : ∀ e, ∃ r : ℝ, v e = (r : EReal))
    (hW : ∀ k, ∃ r : ℝ, W k = (r : EReal)) :
    ∑ k, (0 + ∑ e, if P e then a e k * v e else 0) * W k
      = 0 + ∑ e, if P e then (∑ k, a e k * W k) * v e else 0 := by
  choose A hA using ha
  choose V hV using hv
  choose W' hW' using hW
  have ea : a = fun e k => ((A e k : ℝ) : EReal) := funext fun e => funext fun k => hA e k
  have ev : v = fun e => ((V e : ℝ) : EReal) := funext fun e => hV e
  have ew : W = fun k => ((W' k : ℝ) : EReal) := funext fun k => hW' k
  subst ea ev ew
  simp only [zero_add, ← EReal.coe_mul, ite_coe, ← coe_finset_sum]
  exact congrArg _ (segment_commute_real P A V W')

end Algebra

end Idealize.ShloMosaic.SegmentRows

end
-- ==== Proof.LibChannelForms.lean ====
/-
  Channel-major arrays read at an entry: a column gather, a vector scatter-add, and a stack of columns.

  A graph layer may keep its node table channel-major, x : [C, N] (one row per channel), instead of row-major [N, C].
  Then "take, for every edge e, the entries of node src(e)" is a gather of COLUMNS (stablehlo.gather with offset_dims
  [0], collapsed_slice_dims [1], start_index_map [1], index_vector_dim 1 and slice sizes [C, 1], the start indices an
  [E, 1] integer array, the result [C, E]); the aggregation over the edges is done one channel at a time, each a
  scatter-add of an [E] vector into an [N] vector (stablehlo.scatter with an add body, update_window_dims [],
  inserted_window_dims [0], scatter_dims_to_operand_dims [0], index_vector_dim 1, the scatter indices an [E, 1]
  integer array); and the k per-channel results, each laid out as a column [N, 1], are put side by side into [N, k]
  (stablehlo.concatenate along axis 1).

  Read at the extended reals:
    * the gathered array at (c, e) is x at (c, row e), where row e is the start index of edge e read as a signed
      integer and clamped into [0, N − 1] — the same row the row-major gather reads;
    * the scatter-add at n is the operand's entry plus the sum over the edges e whose scatter index, read as a signed
      integer, IS n, of the update's entry e; an edge whose index is negative or ≥ N is equal to no n and contributes
      nowhere — the same condition as the row-major scatter-add's;
    * the stack of k columns at (n, o) is column o at (n, 0).
-/
import Idealize.ShloMosaic.Lib.ValueIdx
import Idealize.ShloMosaic.Lib.Pipeline.Value
import Idealize.ShloMosaic.PureOps.Ideal.Laws
import proofs.«134872_j72679436583685_2_alg».proof.Proof.LibSegmentRows

noncomputable section

open scoped BigOperators

namespace Cert.ChannelForms

open Idealize.ShloMosaic Idealize.ShloMosaic.ValueIdx

/-- Of the two axes of a matrix, the one that is not axis 1 is axis 0. -/
theorem kept_one {C N : Nat} : (⟨2, ![C, N]⟩ : Shape).kept [1] = [0] := rfl
/-- The same with an empty list of further axes appended. -/
theorem kept_one_nil {C N : Nat} : (⟨2, ![C, N]⟩ : Shape).kept ([1] ++ []) = [0] := rfl
/-- A vector's one axis removed, none is left. -/
theorem kept_vec {N : Nat} : (⟨1, ![N]⟩ : Shape).kept [0] = [] := rfl

/-! ## The column gather read at an entry -/

section Gather
variable {α : Type}

/-- The dimension numbers of "take columns": operand [C, N], start indices [E, 1], result [C, E]. -/
abbrev colGatherDims (C N E : Nat)
    (wf : GatherDims.WF ⟨2, ![C, N]⟩ ⟨2, ![E, 1]⟩ ⟨2, ![C, E]⟩ [0] [1] [] [1] [] 1 ![C, 1]) :
    GatherDims ⟨2, ![C, N]⟩ ⟨2, ![E, 1]⟩ ⟨2, ![C, E]⟩ where
  offsetDims := [0]
  collapsedSliceDims := [1]
  operandBatchingDims := []
  startIndicesBatchingDims := []
  startIndexMap := [1]
  indexVectorDim := 1
  sliceSizes := ![C, 1]
  wf := wf

variable {C N E w : Nat} (wf : GatherDims.WF ⟨2, ![C, N]⟩ ⟨2, ![E, 1]⟩ ⟨2, ![C, E]⟩ [0] [1] [] [1] [] 1 ![C, 1])
  (idx : IVec ⟨2, ![E, 1]⟩ w) (c : Fin C) (e : Fin E)

/-- On the channel axis the operand index is the result's channel … -/
theorem operandIdx_chan :
    ((colGatherDims C N E wf).operandIdx (ix2 c e) idx 0).val = c.val := by
  show (colGatherDims C N E wf).start (ix2 c e) idx 0 + (colGatherDims C N E wf).batchCoord (ix2 c e) 0
      + (colGatherDims C N E wf).offCoord (ix2 c e) 0 = _
  rw [GatherDims.batchCoord_eq_zero _ _ _ List.not_mem_nil]
  unfold GatherDims.start
  rw [dif_neg (by decide : ¬ (0 : Fin 2) ∈ ([1] : List (Fin 2)))]
  unfold GatherDims.offCoord
  rw [dif_pos (by rw [GatherDims.sKept, kept_one_nil]; exact List.mem_singleton.mpr rfl)]
  simp only [Nat.zero_add]
  rfl

/-- … and on the node axis it is the clamped start index. -/
theorem operandIdx_node :
    ((colGatherDims C N E wf).operandIdx (ix2 c e) idx 1).val = min (idx (ix2 e 0)).toInt.toNat (N - 1) := by
  show (colGatherDims C N E wf).start (ix2 c e) idx 1 + (colGatherDims C N E wf).batchCoord (ix2 c e) 1
      + (colGatherDims C N E wf).offCoord (ix2 c e) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colGatherDims C N E wf).startIndexMap from List.mem_singleton.mpr rfl)]
  have hsi : (colGatherDims C N E wf).siIdx (ix2 c e) ⟨List.idxOf (1 : Fin 2) (colGatherDims C N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE COLUMN GATHER AT (c, e): the operand at (c, row e), the row the row-major gather reads. -/
theorem gather_cols_apply (hN : 0 < N) (x : (⟨2, ![C, N]⟩ : Shape).Idx → α) :
    Host.gather (colGatherDims C N E wf) x idx (ix2 c e) = x (ix2 c (SegmentRows.rowOf hN idx e)) := by
  unfold Host.gather
  congr 1
  funext a
  refine Fin.ext ?_
  match a with
  | ⟨0, _⟩ => exact operandIdx_chan wf idx c e
  | ⟨1, _⟩ => exact operandIdx_node wf idx c e

end Gather

/-! ## The vector scatter-add read at an entry -/

section Scatter

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "add entries into a vector": operand [N], scatter indices [E, 1], updates [E]. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The window of update e starts at edge e's scatter index read signed … -/
theorem start_vec : (vecScatterDims N E wf).start (ix1 e) idx 0 = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- … and its window coordinate is 0 (the operand's one axis is an inserted axis). -/
theorem window_vec : (vecScatterDims N E wf).window (ix1 e) 0 = 0 := by
  unfold ScatterDims.window
  rw [dif_neg (by rw [ScatterDims.sKept, kept_vec]; exact List.not_mem_nil)]

/-- WHERE UPDATE e LANDS: at n exactly when edge e's scatter index, read signed, is n. An index that is negative or at
    least N is no n: that update is dropped. -/
theorem resultIdx?_vec_eq_some_iff (n : Fin N) :
    (vecScatterDims N E wf).resultIdx? (ix1 e) idx = some (ix1 n) ↔ (idx (ix2 e 0)).toInt = (n.val : Int) := by
  unfold ScatterDims.resultIdx?
  constructor
  · intro h
    split at h
    · rename_i hr
      have hf := Option.some.inj h
      have h0 := congrArg (fun f => (f 0).val) hf
      simp only [start_vec, window_vec] at h0
      have hr0 := hr 0
      rw [start_vec, window_vec] at hr0
      have : ((ix1 n : (⟨1, ![N]⟩ : Shape).Idx) 0).val = n.val := rfl
      omega
    · exact absurd h (by simp)
  · intro ht
    have hr : ∀ a, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : Int)
        rw [start_vec, window_vec, ht]
        have := n.isLt
        omega
    rw [dif_pos hr]
    congr 1
    funext a
    refine Fin.ext ?_
    match a with
    | ⟨0, _⟩ =>
      show ((vecScatterDims N E wf).start (ix1 e) idx 0 + (vecScatterDims N E wf).window (ix1 e) 0).toNat = n.val
      rw [start_vec, window_vec, ht]; simp

/-- THE VECTOR SCATTER-ADD AT n: the operand's entry plus the update's entries e over the edges e whose scatter index
    is n. -/
theorem hostScatterAdd_vec_apply (x : (⟨1, ![N]⟩ : Shape).Idx → EReal) (upd : (⟨1, ![E]⟩ : Shape).Idx → EReal)
    (n : Fin N) :
    Ideal.hostScatterAdd (vecScatterDims N E wf) x idx upd (ix1 n)
      = x (ix1 n) + ∑ e : Fin E, if (idx (ix2 e 0)).toInt = (n.val : Int) then upd (ix1 e) else 0 := by
  unfold Ideal.hostScatterAdd
  congr 1
  rw [Finset.sum_filter, sum_idx1]
  refine Finset.sum_congr rfl fun e _ => ?_
  simp only [resultIdx?_vec_eq_some_iff]

/-- The same for the host's accumulating scatter at the ideal instance, which is that sum by definition. -/
theorem scatterAdd_vec_apply {φ : FTy} (x : FVec Ideal ⟨1, ![N]⟩ φ) (upd : FVec Ideal ⟨1, ![E]⟩ φ) (n : Fin N) :
    Host.scatterAdd (F := Ideal) (vecScatterDims N E wf) x idx upd (ix1 n)
      = x (ix1 n) + ∑ e : Fin E, if (idx (ix2 e 0)).toInt = (n.val : Int) then upd (ix1 e) else 0 :=
  hostScatterAdd_vec_apply wf idx x upd n

end Scatter

/-! ## A stack of columns read at an entry -/

section Columns
variable {α : Type}

/-- A vector [N] broadcast along a new unit axis to the column [N, 1] reads, at (n, u), the vector at n. -/
theorem column_apply {N : Nat} (v : (⟨1, ![N]⟩ : Shape).Idx → α) (dims : Fin 1 → Fin 2) (hd : dims 0 = 0)
    (h : (⟨1, ![N]⟩ : Shape).BroadcastsInDim ⟨2, ![N, 1]⟩ dims) (n : Fin N) (u : Fin 1) :
    broadcastInDim ⟨2, ![N, 1]⟩ dims h v (ix2 n u) = v (ix1 n) := by
  refine broadcastInDim_apply dims h v (ix2 n u) (ix1 n) fun ax => ?_
  match ax with
  | ⟨0, _⟩ =>
    show n.val = if N = 1 then 0 else ((ix2 n u : (⟨2, ![N, 1]⟩ : Shape).Idx) (dims 0)).val
    rw [hd]
    split
    · have := n.isLt; omega
    · rfl

/-- THE STACK OF k COLUMNS AT (n, o): column o at (n, 0). The columns are a family f, listed in order. -/
theorem concat_cols_apply {N k : Nat} (f : Fin k → ((⟨2, ![N, 1]⟩ : Shape).Idx → α))
    (h : Shape.Concatenates
      ((List.ofFn fun o : Fin k => (⟨⟨2, ![N, 1]⟩, f o⟩ : (s : Shape) × (s.Idx → α))).map (·.1)) ⟨2, ![N, k]⟩ 1)
    (n : Fin N) (o : Fin k) :
    concatenate ⟨2, ![N, k]⟩ 1 (List.ofFn fun o : Fin k => (⟨⟨2, ![N, 1]⟩, f o⟩ : (s : Shape) × (s.Idx → α))) h (ix2 n o)
      = f o (ix2 n 0) :=
  concatenate_ofFn_unit_apply (t := ⟨2, ![N, k]⟩) (s₁ := ⟨2, ![N, 1]⟩) 1 f h rfl rfl (ix2 n o) o rfl (ix2 n 0)
    (fun b hb => by
      match b with
      | ⟨0, _⟩ => rfl
      | ⟨1, _⟩ => exact absurd rfl hb)

/-- Four columns written out. -/
theorem concat_cols4_apply {N : Nat} (u0 u1 u2 u3 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩] :
      List ((s : Shape) × (s.Idx → α))).map (·.1)) ⟨2, ![N, 4]⟩ 1)
    (n : Fin N) (o : Fin 4) :
    concatenate ⟨2, ![N, 4]⟩ 1 [⟨⟨2, ![N, 1]⟩, u0⟩, ⟨⟨2, ![N, 1]⟩, u1⟩, ⟨⟨2, ![N, 1]⟩, u2⟩, ⟨⟨2, ![N, 1]⟩, u3⟩] h (ix2 n o)
      = ![u0, u1, u2, u3] o (ix2 n 0) :=
  concat_cols_apply ![u0, u1, u2, u3] h n o

/-- Eight columns written out. -/
theorem concat_cols8_apply {N : Nat} (u0 u1 u2 u3 u4 u5 u6 u7 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩] :
      List ((s : Shape) × (s.Idx → α))).map (·.1)) ⟨2, ![N, 8]⟩ 1)
    (n : Fin N) (o : Fin 8) :
    concatenate ⟨2, ![N, 8]⟩ 1 [⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩] h (ix2 n o)
      = ![u0, u1, u2, u3, u4, u5, u6, u7] o (ix2 n 0) :=
  concat_cols_apply ![u0, u1, u2, u3, u4, u5, u6, u7] h n o

/-- Sixteen columns written out. -/
theorem concat_cols16_apply {N : Nat} (u0 u1 u2 u3 u4 u5 u6 u7 u8 u9 u10 u11 u12 u13 u14 u15 : (⟨2, ![N, 1]⟩ : Shape).Idx → α)
    (h : Shape.Concatenates (([⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩, ⟨⟨2, ![N, 1]⟩, u8⟩, ⟨⟨2, ![N, 1]⟩, u9⟩, ⟨⟨2, ![N, 1]⟩, u10⟩, ⟨⟨2, ![N, 1]⟩, u11⟩, ⟨⟨2, ![N, 1]⟩, u12⟩, ⟨⟨2, ![N, 1]⟩, u13⟩, ⟨⟨2, ![N, 1]⟩, u14⟩, ⟨⟨2, ![N, 1]⟩, u15⟩] :
      List ((s : Shape) × (s.Idx → α))).map (·.1)) ⟨2, ![N, 16]⟩ 1)
    (n : Fin N) (o : Fin 16) :
    concatenate ⟨2, ![N, 16]⟩ 1 [⟨⟨2, ![N, 1]⟩, u0⟩, ⟨⟨2, ![N, 1]⟩, u1⟩, ⟨⟨2, ![N, 1]⟩, u2⟩, ⟨⟨2, ![N, 1]⟩, u3⟩, ⟨⟨2, ![N, 1]⟩, u4⟩, ⟨⟨2, ![N, 1]⟩, u5⟩, ⟨⟨2, ![N, 1]⟩, u6⟩, ⟨⟨2, ![N, 1]⟩, u7⟩, ⟨⟨2, ![N, 1]⟩, u8⟩, ⟨⟨2, ![N, 1]⟩, u9⟩, ⟨⟨2, ![N, 1]⟩, u10⟩, ⟨⟨2, ![N, 1]⟩, u11⟩, ⟨⟨2, ![N, 1]⟩, u12⟩, ⟨⟨2, ![N, 1]⟩, u13⟩, ⟨⟨2, ![N, 1]⟩, u14⟩, ⟨⟨2, ![N, 1]⟩, u15⟩] h (ix2 n o)
      = ![u0, u1, u2, u3, u4, u5, u6, u7, u8, u9, u10, u11, u12, u13, u14, u15] o (ix2 n 0) :=
  concat_cols_apply ![u0, u1, u2, u3, u4, u5, u6, u7, u8, u9, u10, u11, u12, u13, u14, u15] h n o

end Columns

end Cert.ChannelForms

end
-- ==== Proof.LibScatterCount.lean ====
/-
  A scatter by addition is a sum, and a scatter of ones into zeros is a count.

  stablehlo.scatter with an add body takes the updates one at a time, in row-major order of their indices, and adds
  each to the operand's entry at the place the update lands (dropping the updates that land outside the operand).
  Addition of words being associative and commutative, the order does not matter: the result at an entry i is the
  operand's entry plus the sum of the updates that land at i. With every update the word 1 and every operand entry the
  word 0 the result at i is therefore the NUMBER of updates that land at i, as a word; and a number below 2^31 is read
  back unchanged from a 32-bit word as a signed integer.

  For the one-axis case (operand [N], scatter indices [E, 1], updates [E]) update e lands at n exactly when its index,
  read as a signed integer, is n: the result at n is the number of e with index n.
-/
import Idealize.ShloMosaic.PureOps.ShapeOps
import Idealize.ShloMosaic.Lib.ValueIdx
import Mathlib.Data.BitVec
import Mathlib.Algebra.BigOperators.Fin
import proofs.«134872_j72679436583685_2_alg».proof.Proof.LibChannelForms

noncomputable section

open scoped BigOperators

namespace Cert.ScatterCount

open Idealize.ShloMosaic Idealize.ShloMosaic.ValueIdx

section General
variable {M : Type} [AddCommMonoid M] {s si u : Shape} {w : Nat}

/-- One step of the scatter: the update at position n added where it lands. -/
def step (d : ScatterDims s si u) (idx : IVec si w) (upd : u.Idx → M) (r : s.Idx → M) (n : Fin u.numel) : s.Idx → M :=
  match d.resultIdx? (u.rowMajor.symm n) idx with
  | some i => fun i' => if i' = i then r i + upd (u.rowMajor.symm n) else r i'
  | none => r

/-- What one step adds at the entry i: the update when it lands at i, nothing otherwise. -/
theorem step_apply (d : ScatterDims s si u) (idx : IVec si w) (upd : u.Idx → M) (r : s.Idx → M) (n : Fin u.numel)
    (i : s.Idx) :
    step d idx upd r n i
      = r i + (if d.resultIdx? (u.rowMajor.symm n) idx = some i then upd (u.rowMajor.symm n) else 0) := by
  unfold step
  cases h : d.resultIdx? (u.rowMajor.symm n) idx with
  | none => simp
  | some i0 =>
    by_cases hi : i = i0
    · subst hi; simp
    · have hne : ¬ (some i0 = some i) := fun e => hi (Option.some.inj e).symm
      simp [hi, hne]

/-- The steps over a list of positions add, at i, the updates of the list that land at i. -/
theorem foldl_step_apply (d : ScatterDims s si u) (idx : IVec si w) (upd : u.Idx → M) (l : List (Fin u.numel))
    (x : s.Idx → M) (i : s.Idx) :
    l.foldl (step d idx upd) x i
      = x i + (l.map fun n => if d.resultIdx? (u.rowMajor.symm n) idx = some i then upd (u.rowMajor.symm n) else 0).sum := by
  induction l generalizing x with
  | nil => simp
  | cons n l ih =>
    rw [List.foldl_cons, ih, step_apply, List.map_cons, List.sum_cons, add_assoc]

/-- A SCATTER BY ADDITION IS A SUM: the result at i is the operand's entry plus the updates that land at i. -/
theorem scatter_add_apply (d : ScatterDims s si u) (x : s.Idx → M) (idx : IVec si w) (upd : u.Idx → M) (i : s.Idx) :
    Host.scatter d (fun a b => a + b) x idx upd i
      = x i + ∑ j : u.Idx, if d.resultIdx? j idx = some i then upd j else 0 := by
  have h := foldl_step_apply d idx upd (List.finRange u.numel) x i
  rw [← Fin.sum_univ_def,
    Equiv.sum_comp u.rowMajor.symm (fun j => if d.resultIdx? j idx = some i then upd j else 0)] at h
  exact h

end General

section Words
variable {s si u : Shape} {w v : Nat}

/-- The same for words added by the integer addition. -/
theorem scatter_addi_apply (d : ScatterDims s si u) (x : s.Idx → BitVec v) (idx : IVec si w) (upd : u.Idx → BitVec v)
    (i : s.Idx) :
    Host.scatter d IntOp.addi x idx upd i = x i + ∑ j : u.Idx, if d.resultIdx? j idx = some i then upd j else 0 :=
  scatter_add_apply d x idx upd i

/-- A SCATTER OF ONES INTO ZEROS IS A COUNT: the result at i is the number of updates that land at i, as a word. -/
theorem scatter_ones_apply (d : ScatterDims s si u) (x : s.Idx → BitVec v) (idx : IVec si w) (upd : u.Idx → BitVec v)
    (hx : ∀ i, x i = 0#v) (hu : ∀ j, upd j = 1#v) (i : s.Idx) :
    Host.scatter d IntOp.addi x idx upd i
      = BitVec.ofNat v (Finset.univ.filter fun j : u.Idx => d.resultIdx? j idx = some i).card := by
  rw [scatter_addi_apply, hx, BitVec.zero_add]
  have e : ∀ j : u.Idx, (if d.resultIdx? j idx = some i then upd j else 0)
      = (if d.resultIdx? j idx = some i then (1 : BitVec v) else 0) := fun j => by rw [hu j]; rfl
  rw [Finset.sum_congr rfl fun j _ => e j, Finset.sum_boole, BitVec.natCast_eq_ofNat]

/-- A number below 2^31 is read back unchanged from its 32-bit word. -/
theorem toInt_ofNat_of_lt (n : Nat) (h : n < 2 ^ 31) : (BitVec.ofNat 32 n).toInt = (n : Int) := by
  rw [BitVec.toInt_eq_toNat_of_lt (by rw [BitVec.toNat_ofNat]; omega), BitVec.toNat_ofNat]
  omega

end Words

section Vector
variable {N E w : Nat}

/-- THE ONE-AXIS SCATTER OF ONES INTO ZEROS, read as a signed integer at n: the number of updates whose scatter
    index, read as a signed integer, is n. -/
theorem scatter_vec_ones_toInt (wf : ScatterDims.WF ⟨1, ![N]⟩ ⟨2, ![E, 1]⟩ ⟨1, ![E]⟩ [] [0] [0] 1) (hE : E < 2 ^ 31)
    (x : (⟨1, ![N]⟩ : Shape).Idx → BitVec 32) (idx : IVec ⟨2, ![E, 1]⟩ w) (upd : (⟨1, ![E]⟩ : Shape).Idx → BitVec 32)
    (hx : ∀ i, x i = 0#32) (hu : ∀ j, upd j = 1#32) (n : Fin N) :
    (Host.scatter (Cert.ChannelForms.vecScatterDims N E wf) IntOp.addi x idx upd (ix1 n)).toInt
      = ((Finset.univ.filter fun e : Fin E => (idx (ix2 e 0)).toInt = (n.val : Int)).card : Int) := by
  rw [scatter_ones_apply _ x idx upd hx hu]
  have hc : (Finset.univ.filter fun j : (⟨1, ![E]⟩ : Shape).Idx =>
        (Cert.ChannelForms.vecScatterDims N E wf).resultIdx? j idx = some (ix1 n)).card
      = (Finset.univ.filter fun e : Fin E => (idx (ix2 e 0)).toInt = (n.val : Int)).card := by
    refine Finset.card_equiv Cert.ChannelForms.idxEquiv1 fun j => ?_
    rw [Finset.mem_filter, Finset.mem_filter]
    obtain ⟨e, rfl⟩ : ∃ e, j = ix1 e := ⟨j 0, eq_ix1 j⟩
    rw [Cert.ChannelForms.resultIdx?_vec_eq_some_iff]
    simp only [Finset.mem_univ, true_and]
    rfl
  rw [hc]
  refine toInt_ofNat_of_lt _ (lt_of_le_of_lt ?_ hE)
  exact (Finset.card_le_univ _).trans (by rw [Fintype.card_fin])

end Vector

end Cert.ScatterCount

end
-- ==== Proof.RefValue.lean ====
/-
  The reference program's result: the shared tail applied to the histogram's counts.

  The reference builds, for every entry x of the image (read in row-major order as a flat list of 2^26 entries), an
  integer index: ⌊x⌋ as a 32-bit word when 0 ≤ x < 256, the word 256 otherwise; it clamps the index below at 0 and adds
  257 to a negative one (neither changes an index that is already one of 0, …, 256). It then adds the word 1 at that
  index into 257 zeros, once per entry, keeps the first 256 sums and converts them to floats.

  The sum at b < 256 is the number of flat positions whose index is b; the index of x is b exactly when x falls in
  bin b (an entry outside [0, 256) has index 256, which is no bin); reading the image flat is a bijection of its
  index set, so this is the number of image entries that fall in bin b; and that number, at most 2^26, is read back
  unchanged from its 32-bit word. So the 256 floats are the histogram's counts, and the rest of the program is the
  shared tail.
-/
import proofs.«134872_j72679436583685_2_alg».proof.Proof.Spec
import proofs.«134872_j72679436583685_2_alg».proof.Proof.RefRun
import proofs.«134872_j72679436583685_2_alg».proof.Proof.BinRange
import proofs.«134872_j72679436583685_2_alg».proof.Proof.LibScatterCount

noncomputable section

namespace Cert.Hist

open Cert.ReferenceIdeal Cert.ReferenceIdeal.Gen Idealize.ShloMosaic Idealize.ShloMosaic.TcCoe Idealize.SL.Sem
  Idealize.ShloMosaic.StableHlo Idealize.ShloMosaic.ValueIdx

/-! ## The index of one entry -/

/-- The scatter index the reference computes from an entry x: the bin word of an in-range x and 256 otherwise, clamped
    below at 0, and 257 added when negative. -/
def idxWord (x : EReal) : BitVec 32 :=
  Scalar.select (IntOp.cmpi .slt (IntOp.maxsi 0#32 (Scalar.select (inRange x) (binWord x) 256#32)) 0#32)
    (IntOp.addi (IntOp.maxsi 0#32 (Scalar.select (inRange x) (binWord x) 256#32)) 257#32)
    (IntOp.maxsi 0#32 (Scalar.select (inRange x) (binWord x) 256#32))

/-- A word that is not negative passes the clamp and the wrap-around unchanged. -/
theorem clamp_wrap_of_nonneg (v : BitVec 32) (h : 0 ≤ v.toInt) :
    Scalar.select (IntOp.cmpi .slt (IntOp.maxsi 0#32 v) 0#32) (IntOp.addi (IntOp.maxsi 0#32 v) 257#32) (IntOp.maxsi 0#32 v)
      = v := by
  have hs : v.slt 0#32 = false := by
    rw [BitVec.slt]; simp only [BitVec.toInt_zero, decide_eq_false_iff_not, not_lt]; exact h
  have hm : IntOp.maxsi 0#32 v = v := by unfold IntOp.maxsi; rw [hs]; rfl
  rw [hm]
  unfold IntOp.cmpi
  simp only [hs]
  exact select_zero _ _

/-- The word of a natural number below 2^31 read back as a signed integer. -/
theorem toInt_ofNat32 (n : ℕ) (h : n < 2 ^ 31) : (BitVec.ofNat 32 n).toInt = (n : Int) :=
  Cert.ScatterCount.toInt_ofNat_of_lt n h

/-- THE INDEX OF x IS b EXACTLY WHEN x FALLS IN BIN b (b one of 0, …, 255). -/
theorem idxWord_toInt_eq_iff (x : EReal) (b : ℕ) (hb : b < 256) : (idxWord x).toInt = (b : Int) ↔ Hit x b := by
  unfold idxWord Hit
  by_cases h : inRange x = 1#1
  · obtain ⟨n, hn, hw⟩ := binWord_of_inRange x h
    rw [h, select_one, hw, clamp_wrap_of_nonneg _ (by rw [toInt_ofNat32 n (by omega)]; omega), toInt_ofNat32 n (by omega)]
    constructor
    · intro e
      have : n = b := by exact_mod_cast e
      exact ⟨rfl, by rw [this]⟩
    · intro e
      have := congrArg BitVec.toInt e.2
      rw [toInt_ofNat32 n (by omega), toInt_ofNat32 b (by omega)] at this
      exact this
  · rw [eq_zero_of_ne_one h, select_zero, clamp_wrap_of_nonneg _ (by decide)]
    constructor
    · intro e
      have h256 : (256#32 : BitVec 32).toInt = 256 := by decide
      rw [h256] at e
      omega
    · intro e
      exact absurd e.1 (by decide)

/-! ## The reference's counts -/

/-- The reference's vector of 2^26 scatter indices, as a function of the image. -/
def idxVec (X : FVec Ideal S16x2048x2048 .f32) : IVec S67108864 32 :=
  select (cmpi .slt (maxsi (broadcastInDim S67108864 ![] bcast_S_S67108864 (id (constantI S_ 32 0#32))) (shapeCast _ (select (andi (cmpf .oge X (broadcastInDim S16x2048x2048 ![] bcast_S_S16x2048x2048 (constant S_ .f32 0x00000000#32))) (cmpf .olt X (broadcastInDim S16x2048x2048 ![] bcast_S_S16x2048x2048 (constant S_ .f32 0x43800000#32)))) (fptosi 32 (Host.floor X)) (broadcastInDim S16x2048x2048 ![] bcast_S_S16x2048x2048 (id (constantI S_ 32 256#32)))) shapeCasts_S16x2048x2048_S67108864)) (broadcastInDim S67108864 ![] bcast_S_S67108864 (constantI S_ 32 0#32))) (addi (maxsi (broadcastInDim S67108864 ![] bcast_S_S67108864 (id (constantI S_ 32 0#32))) (shapeCast _ (select (andi (cmpf .oge X (broadcastInDim S16x2048x2048 ![] bcast_S_S16x2048x2048 (constant S_ .f32 0x00000000#32))) (cmpf .olt X (broadcastInDim S16x2048x2048 ![] bcast_S_S16x2048x2048 (constant S_ .f32 0x43800000#32)))) (fptosi 32 (Host.floor X)) (broadcastInDim S16x2048x2048 ![] bcast_S_S16x2048x2048 (id (constantI S_ 32 256#32)))) shapeCasts_S16x2048x2048_S67108864)) (broadcastInDim S67108864 ![] bcast_S_S67108864 (constantI S_ 32 257#32))) (maxsi (broadcastInDim S67108864 ![] bcast_S_S67108864 (id (constantI S_ 32 0#32))) (shapeCast _ (select (andi (cmpf .oge X (broadcastInDim S16x2048x2048 ![] bcast_S_S16x2048x2048 (constant S_ .f32 0x00000000#32))) (cmpf .olt X (broadcastInDim S16x2048x2048 ![] bcast_S_S16x2048x2048 (constant S_ .f32 0x43800000#32)))) (fptosi 32 (Host.floor X)) (broadcastInDim S16x2048x2048 ![] bcast_S_S16x2048x2048 (id (constantI S_ 32 256#32)))) shapeCasts_S16x2048x2048_S67108864))

/-- The reference's 256 counts, as a function of the image. -/
def refCounts (X : FVec Ideal S16x2048x2048 .f32) : FVec Ideal S256 .f32 :=
  sitofp .f32 (extractStridedSlice S256 ![0] (Host.scatter scatter_S257_S67108864x1_S67108864_n_0_0_1 IntOp.addi (broadcastInDim S257 ![] bcast_S_S257 (constantI S_ 32 0#32)) (broadcastInDim S67108864x1 ![0] bcast_S67108864_S67108864x1_0 (idxVec X)) (broadcastInDim S67108864 ![] bcast_S_S67108864 (constantI S_ 32 1#32))) slices_S257_S256_0)

/-- The index at flat position e is the index of the image's entry at the same row-major position. -/
theorem idxVec_apply (X : FVec Ideal S16x2048x2048 .f32) (e : S67108864.Idx) :
    idxVec X e = idxWord (X (Shape.reshapeEquiv shapeCasts_S16x2048x2048_S67108864 e)) := rfl

/-- THE REFERENCE'S COUNTS ARE THE HISTOGRAM'S. -/
theorem refCounts_eq (X : FVec Ideal S16x2048x2048 .f32) : refCounts X = countsVec X := by
  funext i
  obtain ⟨b, rfl⟩ : ∃ b, i = ix1 b := ⟨i 0, eq_ix1 i⟩
  have hb257 : b.val < 257 := by have := b.isLt; omega
  unfold refCounts countsVec
  rw [sitofp_apply, extractStridedSlice_apply (t := S256) ![0] _ slices_S257_S256_0 (ix1 b)
    (ix1 (⟨b.val, hb257⟩ : Fin 257)) (fun a => by
      match a with
      | ⟨0, _⟩ => exact (Nat.zero_add _).symm)]
  show (((Host.scatter (Cert.ChannelForms.vecScatterDims 257 67108864 scatter_S257_S67108864x1_S67108864_n_0_0_1_wf)
      IntOp.addi _ _ _ (ix1 (⟨b.val, hb257⟩ : Fin 257))).toInt : ℝ) : EReal) = _
  rw [Cert.ScatterCount.scatter_vec_ones_toInt scatter_S257_S67108864x1_S67108864_n_0_0_1_wf (by norm_num)
    (broadcastInDim S257 ![] bcast_S_S257 (constantI S_ 32 0#32))
    (broadcastInDim S67108864x1 ![0] bcast_S67108864_S67108864x1_0 (idxVec X))
    (broadcastInDim S67108864 ![] bcast_S_S67108864 (constantI S_ 32 1#32))
    (fun _ => rfl) (fun _ => rfl)]
  have hc : (Finset.univ.filter fun e : Fin 67108864 =>
        (broadcastInDim S67108864x1 ![0] bcast_S67108864_S67108864x1_0 (idxVec X) (ix2 e 0)).toInt
          = (((⟨b.val, hb257⟩ : Fin 257).val : ℕ) : Int)).card = count X b.val := by
    unfold count
    refine Finset.card_equiv (Cert.ChannelForms.idxEquiv1.symm.trans
      (Shape.reshapeEquiv shapeCasts_S16x2048x2048_S67108864)) fun e => ?_
    rw [Finset.mem_filter, Finset.mem_filter,
      Cert.ChannelForms.column_apply (idxVec X) ![0] rfl bcast_S67108864_S67108864x1_0 e 0, idxVec_apply,
      idxWord_toInt_eq_iff _ b.val b.isLt]
    simp only [Finset.mem_univ, true_and]
    rfl
  show ((((Finset.univ.filter fun e : Fin 67108864 =>
        (broadcastInDim S67108864x1 ![0] bcast_S67108864_S67108864x1_0 (idxVec X) (ix2 e 0)).toInt
          = (((⟨b.val, hb257⟩ : Fin 257).val : ℕ) : Int)).card : Int) : ℝ) : EReal) = (((count X b.val : ℕ) : ℝ) : EReal)
  rw [hc, Int.cast_natCast]

/-! ## The reference's result -/

/-- THE REFERENCE'S RESULT IS THE SHARED TAIL OF THE HISTOGRAM'S COUNTS. -/
theorem ref_result (m : (ℓ : Loc nD τ sig) → Buf (Elt Ideal) ℓ) (c : Dev nD) :
    Cert.ReferenceIdeal.RunP.res_main_v37 (F := Ideal) m c
      = entropyTail bcast_S_S256 reducesTo_S256_S_d0 h_S_ (countsVec (m ((c.tc : Thread nD τ).loc main_arg0))) := by
  have h : Cert.ReferenceIdeal.RunP.res_main_v37 (F := Ideal) m c
      = entropyTail bcast_S_S256 reducesTo_S256_S_d0 h_S_ (refCounts (m ((c.tc : Thread nD τ).loc main_arg0))) := by
    unfold Cert.ReferenceIdeal.RunP.res_main_v37 entropyTail refCounts idxVec
    with_reducible rfl
  rw [h, refCounts_eq]

end Cert.Hist

end
-- ==== Proof.lean ====
/-
  The certificate of a 256-bin image histogram followed by an entropy-like scalar: a Pallas kernel against jnp.

  Both programs count, for each bin b = 0 … 255, the entries x of a [16,2048,2048] image with 0 ≤ x < 256 whose
  integer part is b, divide the counts by 2^22, and return 16 · (8 + Σ_b [p_b > 0] p_b log₂ p_b).  The kernel walks the
  flattened image in 64 blocks of 512 rows on a 2 × 32 grid; in each block it compares the entries' bin numbers with each
  bin in turn and sums the 0/1 results, accumulates the 256 counts of a core's 32 blocks in that core's output block,
  and the host adds the two cores' rows.  The reference scatters a one into a 257-entry integer table for each entry
  (out-of-range entries go to the spare slot) and converts the table to floats.  At the extended reals both are the
  same vector of natural numbers — the sum over the blocks of the blocks' counts is the whole image's count — and the
  tail is the same function of it; no finiteness of the inputs is used.

  The frames: the kernel's two are its frame certificate; the reference's is its run with the result dropped.  The
  ideal pass rewrote nothing, so there is nothing to preserve.
-/
import proofs.«134872_j72679436583685_2_alg».proof.Defs
import proofs.«134872_j72679436583685_2_alg».proof.Proof.Gen.Kernel
import proofs.«134872_j72679436583685_2_alg».proof.Proof.Gen.Kernel.Frame
import proofs.«134872_j72679436583685_2_alg».proof.Proof.Gen.KernelIdeal
import proofs.«134872_j72679436583685_2_alg».proof.Proof.Gen.KernelIdeal.Frame
import proofs.«134872_j72679436583685_2_alg».proof.Proof.Gen.ReferenceIdeal
import proofs.«134872_j72679436583685_2_alg».proof.Proof.Gen.Pre_finite_inputs
import proofs.«134872_j72679436583685_2_alg».proof.Proof.KernelValue
import proofs.«134872_j72679436583685_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end at the shared tail of the image's 256 counts. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.RunP.run (F := Ideal) m' ρ')
  rw [Cert.Hist.ref_result, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
